-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S100x64 : Shape := ⟨2, ![100, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S800000 : Shape := ⟨1, ![800000]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x47 : S_.BroadcastsInDim S64x47 (![] : Fin 0 → Fin S64x47.rank)
  reducesTo_S64x47_S_d0_1 : S64x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg4 : FVec F S64 .f32) (main_arg5 : FVec F S64x47 .f32) (main_arg6 : FVec F S47 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x47 .f32 := Host.absf main_arg5
  let main_cst_8 : FVec F S_ .f32 := constant S_ .f32 0x7F800000#32
  let main_v25 : FVec F S64x47 .f32 := broadcastInDim S64x47 ![] bcast_S_S64x47 main_cst_8
  let main_v26 : IVec S64x47 1 := cmpf .olt main_v24 main_v25
  let main_c_9 : IVec S_ 1 := constantI S_ 1 1#1
  let main_v27 : IVec S_ 1 := (fun x v => Host.reduce IntOp.andi x v reducesTo_S64x47_S_d0_1 h_S_) main_v26 main_c_9
  let main_v28 : IVec S_ 1 := andi main_v23 main_v27
  let main_v29 : FVec F S47 .f32 := Host.absf main_arg6
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S50000x100 .f32) (main_arg1 : FVec F S100x64 .f32) (main_arg2 : FVec F S64 .f32) (main_arg3 : FVec F S64x64 .f32) (main_arg4 : FVec F S64 .f32) (main_arg5 : FVec F S64x47 .f32) (main_arg6 : FVec F S47 .f32) (main_arg7 : IVec S800000 32) (main_arg8 : IVec S800000 32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S100x64 .f32 := Host.absf main_arg1
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S50000x100 : Shape := ⟨2, ![50000, 100]⟩
abbrev S100x64 : Shape := ⟨2, ![100, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x64 : Shape := ⟨2, ![50000, 64]⟩
abbrev S5000x100 : Shape := ⟨2, ![5000, 100]⟩
abbrev S5000x64 : Shape := ⟨2, ![5000, 64]⟩
abbrev S50000x1 : Shape := ⟨2, ![50000, 1]⟩
abbrev S800000x64 : Shape := ⟨2, ![800000, 64]⟩
abbrev S1x64 : Shape := ⟨2, ![1, 64]⟩
abbrev S50000x47 : Shape := ⟨2, ![50000, 47]⟩
abbrev S5000x47 : Shape := ⟨2, ![5000, 47]⟩
abbrev S800000x47 : Shape := ⟨2, ![800000, 47]⟩
abbrev S1x47 : Shape := ⟨2, ![1, 47]⟩

abbrev nBuf : Space → Nat
  | .hbm => 93
  | .vmem => 30
  | .smem => 0
  | _ => 0

abbrev bufTy : (tb : Table) → Fin (tcTables nBuf tb) → BufTy
  | .hbm, ⟨0, _⟩ => ⟨S50000x100, .f32⟩
  | .hbm, ⟨1, _⟩ => ⟨S100x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x47, .f32⟩
  | .hbm, ⟨6, _⟩ => ⟨S47, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x64, .f32⟩
  | .hbm, ⟨28, _⟩ => ⟨S50000x1, .f32⟩
  | .hbm, ⟨29, _⟩ => ⟨S50000x64, .f32⟩
  | .hbm, ⟨30, _⟩ => ⟨S50000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S50000x1, .f32⟩
  | .hbm, ⟨51, _⟩ => ⟨S50000x64, .f32⟩
  | .hbm, ⟨52, _⟩ => ⟨S50000x64, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S50000x1, .f32⟩
  | .hbm, ⟨67, _⟩ => ⟨S50000x64, .f32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S50000x47, .f32⟩
  | .hbm, ⟨72, _⟩ => ⟨S50000x1, .f32⟩
  | .hbm, ⟨73, _⟩ => ⟨S50000x47, .f32⟩
  | .hbm, ⟨74, _⟩ => ⟨S50000x47, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x47, .f32⟩
  | .hbm, ⟨84, _⟩ => ⟨S_, .f32⟩
  | .hbm, ⟨85, _⟩ => ⟨S50000x47, .f32⟩
  | .hbm, ⟨86, _⟩ => ⟨S800000x1, .i32⟩
  | .hbm, ⟨87, _⟩ => ⟨S50000x47, .f32⟩
  | .hbm, ⟨88, _⟩ => ⟨S50000x1, .f32⟩
  | .hbm, ⟨89, _⟩ => ⟨S50000x47, .f32⟩
  | .hbm, ⟨90, _⟩ => ⟨S50000x47, .f32⟩
  | .hbm, ⟨91, _⟩ => ⟨S1x47, .f32⟩
  | .hbm, ⟨92, _⟩ => ⟨S50000x47, .f32⟩
  | .local _ .vmem, ⟨0, _⟩ => ⟨S5000x100, .f32⟩
  | .local _ .vmem, ⟨1, _⟩ => ⟨S5000x100, .f32⟩
  | .local _ .vmem, ⟨2, _⟩ => ⟨S100x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x47, .f32⟩
  | .local _ .vmem, ⟨23, _⟩ => ⟨S5000x47, .f32⟩
  | .local _ .vmem, ⟨24, _⟩ => ⟨S5000x47, .f32⟩
  | .local _ .vmem, ⟨25, _⟩ => ⟨S5000x47, .f32⟩
  | .local _ .vmem, ⟨26, _⟩ => ⟨S5000x47, .f32⟩
  | .local _ .vmem, ⟨27, _⟩ => ⟨S1x47, .f32⟩
  | .local _ .vmem, ⟨28, _⟩ => ⟨S5000x47, .f32⟩
  | .local _ .vmem, ⟨29, _⟩ => ⟨S5000x47, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_9 : Ref sig .tc := ⟨.hbm, 75, rfl⟩
abbrev main_v55 : Ref sig .tc := ⟨.hbm, 76, rfl⟩
abbrev main_v56 : Ref sig .tc := ⟨.hbm, 77, rfl⟩
abbrev main_c_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x47 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x47 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x47 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x47 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x47 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x64_S100x64_0_0 : ∀ a, (![0, 0] : Fin 2 → Nat) a + S100x64.size a ≤ S100x64.size a
  h_S100x64 : 0 < S100x64.numel
  inb_S5000x64_S5000x64_0_0 : ∀ a, (![0, 0] : Fin 2 → Nat) a + S5000x64.size a ≤ S5000x64.size a
  h_S5000x64 : 0 < S5000x64.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x47_S64x47_0_0 : ∀ a, (![0, 0] : Fin 2 → Nat) a + S64x47.size a ≤ S64x47.size a
  h_S64x47 : 0 < S64x47.numel
  inb_S5000x47_S5000x47_0_0 : ∀ a, (![0, 0] : Fin 2 → Nat) a + S5000x47.size a ≤ S5000x47.size a
  h_S5000x47 : 0 < S5000x47.numel
  bcast_S50000x1_S50000x47_0_1 : S50000x1.BroadcastsInDim S50000x47 (![0, 1] : Fin 2 → Fin S50000x47.rank)
  bcast_S_S50000x47 : S_.BroadcastsInDim S50000x47 (![] : Fin 0 → Fin S50000x47.rank)
  shapeCasts_S47_S1x47 : S47.ShapeCasts S1x47
  shapeCasts_S5000x47_S5000x47 : S5000x47.ShapeCasts S5000x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  scatter_S50000_S800000x1_S800000_n_0_0_1_wf : ScatterDims.WF S50000 S800000x1 S800000 [] [0] [0] 1
  dot_S5000x100_S100x64_S5000x64_1_0_0_1_n_n_wf : DotDims.WF S5000x100 S100x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x47_S5000x47_1_0_0_1_n_n_wf : DotDims.WF S5000x64 S64x47 S5000x47 [1] [0] [0] [1] [] []
  gather_S50000x47_S800000x1_S800000x47_1_0_n_n_0_1_147_wf : GatherDims.WF S50000x47 S800000x1 S800000x47 [1] [0] [] [0] [] 1 ![1, 47]
  scatter_S50000x47_S800000x1_S800000x47_1_0_0_1_wf : ScatterDims.WF S50000x47 S800000x1 S800000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x47.size a ≤ S64x47.size a
  hwx4_1 : ∀ i : grid4.Coords, EltTy.bits .f32 = 32 ∨ (Rect.block (s := S64x47) S64x47.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x47.size a ≤ S50000x47.size a
  hwx4_2 : ∀ i : grid4.Coords, EltTy.bits .f32 = 32 ∨ (Rect.block (s := S50000x47) S5000x47.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x47.size a ≤ S50000x47.size a
  hwx5_0 : ∀ i : grid5.Coords, EltTy.bits .f32 = 32 ∨ (Rect.block (s := S50000x47) S5000x47.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x47.size a ≤ S1x47.size a
  hwx5_1 : ∀ i : grid5.Coords, EltTy.bits .f32 = 32 ∨ (Rect.block (s := S1x47) S1x47.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x47.size a ≤ S50000x47.size a
  hwx5_2 : ∀ i : grid5.Coords, EltTy.bits .f32 = 32 ∨ (Rect.block (s := S50000x47) S5000x47.size (cc5_transform_2 i) (hinb5_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x47_S5000x47_1_0_0_1_n_n : DotDims S5000x64 S64x47 S5000x47 where
  lhsContracting := [1]
  rhsContracting := [0]
  lhsNonContracting := [0]
  rhsNonContracting := [1]
  lhsBatch := []
  rhsBatch := []
  wf := dot_S5000x64_S64x47_S5000x47_1_0_0_1_n_n_wf
def gather_S50000x47_S800000x1_S800000x47_1_0_n_n_0_1_147 : GatherDims S50000x47 S800000x1 S800000x47 where
  offsetDims := [1]
  collapsedSliceDims := [0]
  operandBatchingDims := []
  startIndicesBatchingDims := []
  startIndexMap := [0]
  indexVectorDim := 1
  sliceSizes := ![1, 47]
  wf := gather_S50000x47_S800000x1_S800000x47_1_0_n_n_0_1_147_wf
def scatter_S50000x47_S800000x1_S800000x47_1_0_0_1 : ScatterDims S50000x47 S800000x1 S800000x47 where
  updateWindowDims := [1]
  insertedWindowDims := [0]
  scatterDimsToOperandDims := [0]
  indexVectorDim := 1
  wf := scatter_S50000x47_S800000x1_S800000x47_1_0_0_1_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v31) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x47.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S5000x47.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v67) S5000x47.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S1x47.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S5000x47.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x100 : Shape := ⟨2, ![50000, 100]⟩
abbrev S100x64 : Shape := ⟨2, ![100, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x100 : Shape := ⟨2, ![800000, 100]⟩
abbrev S50000x64 : Shape := ⟨2, ![50000, 64]⟩
abbrev S1x64 : Shape := ⟨2, ![1, 64]⟩
abbrev S800000x64 : Shape := ⟨2, ![800000, 64]⟩
abbrev S50000x47 : Shape := ⟨2, ![50000, 47]⟩
abbrev S1x47 : Shape := ⟨2, ![1, 47]⟩

abbrev nBuf : Space → Nat
  | .hbm => 102
  | .vmem => 0
  | .smem => 0
  | _ => 0

abbrev bufTy : (tb : Table) → Fin (tcTables nBuf tb) → BufTy
  | .hbm, ⟨0, _⟩ => ⟨S50000x100, .f32⟩
  | .hbm, ⟨1, _⟩ => ⟨S100x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x47, .f32⟩
  | .hbm, ⟨6, _⟩ => ⟨S47, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x100, .f32⟩
  | .hbm, ⟨29, _⟩ => ⟨S50000x100, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x100, .f32⟩
  | .hbm, ⟨39, _⟩ => ⟨S_, .f32⟩
  | .hbm, ⟨40, _⟩ => ⟨S50000x100, .f32⟩
  | .hbm, ⟨41, _⟩ => ⟨S800000x1, .i32⟩
  | .hbm, ⟨42, _⟩ => ⟨S50000x100, .f32⟩
  | .hbm, ⟨43, _⟩ => ⟨S50000x1, .f32⟩
  | .hbm, ⟨44, _⟩ => ⟨S50000x100, .f32⟩
  | .hbm, ⟨45, _⟩ => ⟨S50000x100, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S50000x1, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | .hbm, ⟨79, _⟩ => ⟨S50000x1, .f32⟩
  | .hbm, ⟨80, _⟩ => ⟨S50000x64, .f32⟩
  | .hbm, ⟨81, _⟩ => ⟨S50000x64, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x64, .f32⟩
  | .hbm, ⟨91, _⟩ => ⟨S_, .f32⟩
  | .hbm, ⟨92, _⟩ => ⟨S50000x64, .f32⟩
  | .hbm, ⟨93, _⟩ => ⟨S800000x1, .i32⟩
  | .hbm, ⟨94, _⟩ => ⟨S50000x64, .f32⟩
  | .hbm, ⟨95, _⟩ => ⟨S50000x1, .f32⟩
  | .hbm, ⟨96, _⟩ => ⟨S50000x64, .f32⟩
  | .hbm, ⟨97, _⟩ => ⟨S50000x64, .f32⟩
  | .hbm, ⟨98, _⟩ => ⟨S50000x47, .f32⟩
  | .hbm, ⟨99, _⟩ => ⟨S1x47, .f32⟩
  | .hbm, ⟨100, _⟩ => ⟨S50000x47, .f32⟩
  | .hbm, ⟨101, _⟩ => ⟨S50000x47, .f32⟩
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x100_0_1 : S50000x1.BroadcastsInDim S50000x100 (![0, 1] : Fin 2 → Fin S50000x100.rank)
  bcast_S_S50000x100 : S_.BroadcastsInDim S50000x100 (![] : Fin 0 → Fin S50000x100.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  scatter_S50000_S800000x1_S800000_n_0_0_1_wf : ScatterDims.WF S50000 S800000x1 S800000 [] [0] [0] 1
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x64_S50000x64_1_0_0_1_n_n_wf : DotDims.WF S50000x100 S100x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x47_S50000x47_1_0_0_1_n_n_wf : DotDims.WF S50000x64 S64x47 S50000x47 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x64_S50000x64_1_0_0_1_n_n : DotDims S50000x100 S100x64 S50000x64 where
  lhsContracting := [1]
  rhsContracting := [0]
  lhsNonContracting := [0]
  rhsNonContracting := [1]
  lhsBatch := []
  rhsBatch := []
  wf := dot_S50000x100_S100x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x47_S50000x47_1_0_0_1_n_n : DotDims S50000x64 S64x47 S50000x47 where
  lhsContracting := [1]
  rhsContracting := [0]
  lhsNonContracting := [0]
  rhsNonContracting := [1]
  lhsBatch := []
  rhsBatch := []
  wf := dot_S50000x64_S64x47_S50000x47_1_0_0_1_n_n_wf

class Facts : Prop extends Facts₀ where

variable [Facts]
-- ==== Proof.KernelRun.lean ====
/-
  The idealized kernel's run, with its result named.

  The program is ten segments: four stretches of host operations and six pipelined regions. Along the run the buffer
  contents at each segment boundary are a fold from the launch memory: a stretch applies its operations, a region leaves
  its arrays at what its write-backs fold to and every other buffer as it was. Every weakly fair execution terminates
  without a fault in a state whose unscoped buffers hold the last boundary's contents; so the result buffer holds the
  last boundary's contents at the result, and the argument buffers, which nothing writes, hold what they held at launch.
-/
import proofs.«128478_j30691836297929_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which unfolds plain
-- definitions in a metavariable's type
set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v69) = W10 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v69 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.RunValue

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.LibWholeMat.lean ====
/-
  Whole-matrix functions over the extended reals, and the kernel's and the host's operations read as them.

  For any extents: the zero matrix Z, the matrix product mm (entry (r, c) the sum over k of a (r, k) · w (k, c)), plane k
  of a stack of matrices, row k of a matrix repeated down M rows (rowb), a vector repeated down M rows (vecb). A product
  with the zero matrix on either side is the zero matrix, with no finiteness assumed: over the extended reals x · 0 = 0
  for every x, the infinities included.
  Then each spelling of these in a printed program, as an equation between whole arrays (no index in sight), stated for
  any extents so that it applies to a printed operation by unification:
    • a vector unit's plain matrix product into the zero accumulator, its operands narrowed to bf16 or already bf16, and
      the host's plain dot_general, are mm (a change of float format is the identity on extended reals; the dimension
      record is any record equal to the plain one, which a printed plain record is by rfl);
    • a [1, M, N] block cut from a stack at offsets (o, 0, 0) and viewed as [M, N] is plane o;
    • a [1, N] block cut from a matrix at offsets (o, 0), broadcast to [M, N] by one broadcast (a kernel), or flattened
      and broadcast twice through [1, N] (the host), is rowb; a vector viewed as [1, N] and broadcast, or broadcast twice,
      is vecb; a vector flattened to [N] and viewed again as [1, N] is itself;
    • the dense all-zero constant, a kernel's splat of the zero word and the host's broadcast of the zero scalar are Z;
      the word 0x3F800000 is the real number one;
    • the host's 1 / (1 + exp (−x)), its ones splats of that word, is the logistic function, and its tanh the kernel's.
-/
import Idealize.ShloMosaic.Lib.ValueIdx
import Idealize.ShloMosaic.Lib.ValueLayout
import Idealize.ShloMosaic.Lib.Pipeline.Value
import Idealize.ShloMosaic.PureOps.Ideal.Laws
import proofs.«128478_j30691836297929_1_alg».proof.Proof.LibPlainDot

noncomputable section

open scoped BigOperators

namespace Cert.WholeMat

open Idealize.ShloMosaic Idealize.ShloMosaic.ValueIdx

/-- An M × N matrix of extended reals. -/
abbrev Mat (M N : Nat) : Type := FVec Ideal ⟨2, ![M, N]⟩ .f32

variable {M K N R : Nat}

/-- The zero matrix. -/
def Z (M N : Nat) : Mat M N := fun _ => 0

/-- The matrix product: entry (r, c) is the sum over k of a (r, k) · w (k, c). -/
def mm (a : Mat M K) (w : Mat K N) : Mat M N :=
  fun i => ∑ k : Fin K, a (ix2 ⟨(i 0).val, idx2_lt0 i⟩ k) * w (ix2 k ⟨(i 1).val, idx2_lt1 i⟩)

theorem mm_apply (a : Mat M K) (w : Mat K N) (r : Fin M) (c : Fin N) :
    mm a w (ix2 r c) = ∑ k : Fin K, a (ix2 r k) * w (ix2 k c) := rfl

/-- Plane k of a stack of R matrices. -/
def plane (W : FVec Ideal ⟨3, ![R, M, N]⟩ .f32) (k : Fin R) : Mat M N :=
  fun i => W (ix3 k ⟨(i 0).val, idx2_lt0 i⟩ ⟨(i 1).val, idx2_lt1 i⟩)

theorem plane_apply (W : FVec Ideal ⟨3, ![R, M, N]⟩ .f32) (k : Fin R) (r : Fin M) (c : Fin N) :
    plane W k (ix2 r c) = W (ix3 k r c) := rfl

/-- Row k of an R × N matrix, repeated down M rows. -/
def rowb (b : Mat R N) (k : Fin R) (M : Nat) : Mat M N := fun i => b (ix2 k ⟨(i 1).val, idx2_lt1 i⟩)

theorem rowb_apply (b : Mat R N) (k : Fin R) (r : Fin M) (c : Fin N) : rowb b k M (ix2 r c) = b (ix2 k c) := rfl

/-- A vector of length N, repeated down M rows. -/
def vecb (v : FVec Ideal ⟨1, ![N]⟩ .f32) (M : Nat) : Mat M N := fun i => v (ix1 ⟨(i 1).val, idx2_lt1 i⟩)

theorem vecb_apply (v : FVec Ideal ⟨1, ![N]⟩ .f32) (r : Fin M) (c : Fin N) : vecb v M (ix2 r c) = v (ix1 c) := rfl

/-- A product with the zero matrix on the right is zero: every term is x · 0 = 0, also for infinite x. -/
theorem mm_Z_right (a : Mat M K) : mm a (Z K N) = Z M N :=
  funext fun _ => Finset.sum_eq_zero fun _ _ => mul_zero _

/-- A product with the zero matrix on the left is zero. -/
theorem mm_Z_left (w : Mat K N) : mm (Z M K) w = Z M N :=
  funext fun _ => Finset.sum_eq_zero fun _ _ => zero_mul _

/-! ## Zero -/

/-- The dense all-zero constant is the zero matrix. -/
theorem constant_zero : constant (F := Ideal) ⟨2, ![M, N]⟩ .f32 0x00000000#32 = Z M N :=
  funext fun _ => Ideal.ofBits_zero_f32

/-- The kernel's splat of the all-zero word is the zero matrix. -/
theorem splat_zero : broadcast ⟨2, ![M, N]⟩ (Scalar.ofBits (F := Ideal) .f32 0x00000000#32) = Z M N :=
  funext fun _ => Ideal.ofBits_zero_f32

/-- The host's broadcast of the all-zero scalar is the zero matrix. -/
theorem hostSplat_zero (dims : Fin 0 → Fin 2) (h : (⟨0, ![]⟩ : Shape).BroadcastsInDim ⟨2, ![M, N]⟩ dims) :
    broadcastInDim ⟨2, ![M, N]⟩ dims h (constant (F := Ideal) ⟨0, ![]⟩ .f32 0x00000000#32) = Z M N :=
  funext fun _ => Ideal.ofBits_zero_f32

/-- The word 0x3F800000 is the real number one. -/
theorem one_word : Ideal.ofBits .f32 0x3F800000#32 = 1 := by
  simp [Ideal.ofBits, Ideal.ieee, -EReal.coe_mul]; norm_num

/-! ## Products -/

/-- A vector unit's plain product of narrowed operands into the zero accumulator is the matrix product. -/
theorem matmul_eq_mm (d : DotDims ⟨2, ![M, K]⟩ ⟨2, ![K, N]⟩ ⟨2, ![M, N]⟩) (hd : d = DotDims.plain M K N)
    (prec : Option ContractPrecision) (a : Mat M K) (w : Mat K N) (h1 : FTy.bf16.bits < FTy.f32.bits)
    (h2 : FTy.bf16.bits < FTy.f32.bits) :
    matmul d prec (truncf .bf16 a h1) (truncf .bf16 w h2) (constant ⟨2, ![M, N]⟩ .f32 0x00000000#32) = mm a w := by
  subst hd
  funext i
  obtain ⟨r, c, rfl⟩ : ∃ (r : Fin M) (c : Fin N), i = ix2 r c := ⟨i 0, i 1, eq_ix2 i⟩
  exact PlainDot.matmul_zero_apply M K N prec (truncf .bf16 a h1) (truncf .bf16 w h2) r c

/-- The same with the left operand already narrowed. -/
theorem matmul_eq_mm_left (d : DotDims ⟨2, ![M, K]⟩ ⟨2, ![K, N]⟩ ⟨2, ![M, N]⟩) (hd : d = DotDims.plain M K N)
    (prec : Option ContractPrecision) (a : FVec Ideal ⟨2, ![M, K]⟩ .bf16) (w : FVec Ideal ⟨2, ![K, N]⟩ .bf16) :
    matmul d prec a w (constant ⟨2, ![M, N]⟩ .f32 0x00000000#32) = mm (a : Mat M K) (w : Mat K N) := by
  subst hd
  funext i
  obtain ⟨r, c, rfl⟩ : ∃ (r : Fin M) (c : Fin N), i = ix2 r c := ⟨i 0, i 1, eq_ix2 i⟩
  exact PlainDot.matmul_zero_apply M K N prec a w r c

/-- The host's plain dot_general is the matrix product. -/
theorem dotGeneral_eq_mm (d : DotDims ⟨2, ![M, K]⟩ ⟨2, ![K, N]⟩ ⟨2, ![M, N]⟩) (hd : d = DotDims.plain M K N)
    (prec : Option ContractPrecision) (a : Mat M K) (w : Mat K N) :
    Host.dotGeneral d prec a w = mm a w := by
  subst hd
  funext i
  obtain ⟨r, c, rfl⟩ : ∃ (r : Fin M) (c : Fin N), i = ix2 r c := ⟨i 0, i 1, eq_ix2 i⟩
  exact PlainDot.dotGeneral_apply M K N prec .single a w r c

/-! ## Planes and rows -/

/-- Plane o of a stack, cut out and viewed as a matrix. -/
theorem slice_plane (W : FVec Ideal ⟨3, ![R, M, N]⟩ .f32) (o : Nat) (ho : o < R)
    (hs : (⟨3, ![R, M, N]⟩ : Shape).Slices ![o, 0, 0] ⟨3, ![1, M, N]⟩)
    (hc : (⟨3, ![1, M, N]⟩ : Shape).ShapeCasts ⟨2, ![M, N]⟩) :
    shapeCast ⟨2, ![M, N]⟩ (extractStridedSlice ⟨3, ![1, M, N]⟩ ![o, 0, 0] W hs) hc = plane W ⟨o, ho⟩ := by
  funext i
  obtain ⟨r, c, rfl⟩ : ∃ (r : Fin M) (c : Fin N), i = ix2 r c := ⟨i 0, i 1, eq_ix2 i⟩
  rw [shapeCast_1ab_ab_apply]
  refine extractStridedSlice_apply _ W hs _ (ix3 ⟨o, ho⟩ r c) fun a => ?_
  match a with
  | ⟨0, _⟩ => rfl
  | ⟨1, _⟩ => show r.val = 0 + r.val; omega
  | ⟨2, _⟩ => show c.val = 0 + c.val; omega

/-- A vector viewed as a one-row matrix and back. -/
theorem row_vec_row (x : Mat 1 N) (h1 : (⟨2, ![1, N]⟩ : Shape).ShapeCasts ⟨1, ![N]⟩)
    (h2 : (⟨1, ![N]⟩ : Shape).ShapeCasts ⟨2, ![1, N]⟩) :
    shapeCast ⟨2, ![1, N]⟩ (shapeCast ⟨1, ![N]⟩ x h1) h2 = x :=
  shapeCast_shapeCast x h1 h2

/-- Row o of a matrix, cut out and repeated down M rows by one broadcast. -/
theorem slice_rowb (b : Mat R N) (o : Nat) (ho : o < R)
    (hs : (⟨2, ![R, N]⟩ : Shape).Slices ![o, 0] ⟨2, ![1, N]⟩)
    (hb : (⟨2, ![1, N]⟩ : Shape).Broadcasts ⟨2, ![M, N]⟩) :
    broadcastTo ⟨2, ![M, N]⟩ (extractStridedSlice ⟨2, ![1, N]⟩ ![o, 0] b hs) hb = rowb b ⟨o, ho⟩ M := by
  funext i
  obtain ⟨r, c, rfl⟩ : ∃ (r : Fin M) (c : Fin N), i = ix2 r c := ⟨i 0, i 1, eq_ix2 i⟩
  rw [broadcastTo_1b_ab_apply]
  refine extractStridedSlice_apply _ b hs _ (ix2 ⟨o, ho⟩ c) fun a => ?_
  match a with
  | ⟨0, _⟩ => rfl
  | ⟨1, _⟩ => show c.val = 0 + c.val; omega

/-- Row o of a matrix, cut out, flattened to a vector, and repeated down M rows by the host's two broadcasts. -/
theorem hostSlice_rowb (b : Mat R N) (o : Nat) (ho : o < R)
    (hs : (⟨2, ![R, N]⟩ : Shape).Slices ![o, 0] ⟨2, ![1, N]⟩)
    (hc : (⟨2, ![1, N]⟩ : Shape).ShapeCasts ⟨1, ![N]⟩)
    (d1 : Fin 1 → Fin 2) (hd1 : d1 = ![1]) (hb1 : (⟨1, ![N]⟩ : Shape).BroadcastsInDim ⟨2, ![1, N]⟩ d1)
    (d2 : Fin 2 → Fin 2) (hd2 : d2 = ![0, 1]) (hb2 : (⟨2, ![1, N]⟩ : Shape).BroadcastsInDim ⟨2, ![M, N]⟩ d2) :
    broadcastInDim ⟨2, ![M, N]⟩ d2 hb2 (broadcastInDim ⟨2, ![1, N]⟩ d1 hb1
      (shapeCast ⟨1, ![N]⟩ (extractStridedSlice ⟨2, ![1, N]⟩ ![o, 0] b hs) hc)) = rowb b ⟨o, ho⟩ M := by
  subst hd1 hd2
  funext i
  obtain ⟨r, c, rfl⟩ : ∃ (r : Fin M) (c : Fin N), i = ix2 r c := ⟨i 0, i 1, eq_ix2 i⟩
  rw [broadcastInDim_apply _ hb2 _ (ix2 r c) (ix2 (0 : Fin 1) c) (fun a => by
    match a with
    | ⟨0, _⟩ => rfl
    | ⟨1, _⟩ =>
      show c.val = if N = 1 then 0 else c.val
      split
      · have := c.isLt; omega
      · rfl)]
  rw [broadcastInDim_apply _ hb1 _ (ix2 (0 : Fin 1) c) (ix1 c) (fun a => by
    match a with
    | ⟨0, _⟩ =>
      show c.val = if N = 1 then 0 else c.val
      split
      · have := c.isLt; omega
      · rfl)]
  rw [shapeCast_1a_a_apply]
  refine extractStridedSlice_apply _ b hs _ (ix2 ⟨o, ho⟩ c) fun a => ?_
  match a with
  | ⟨0, _⟩ => rfl
  | ⟨1, _⟩ => show c.val = 0 + c.val; omega

/-- A vector viewed as a one-row matrix and repeated down M rows (the kernel's bias vector). -/
theorem vec_rowb (v : FVec Ideal ⟨1, ![N]⟩ .f32) (hc : (⟨1, ![N]⟩ : Shape).ShapeCasts ⟨2, ![1, N]⟩)
    (hb : (⟨2, ![1, N]⟩ : Shape).Broadcasts ⟨2, ![M, N]⟩) :
    broadcastTo ⟨2, ![M, N]⟩ (shapeCast ⟨2, ![1, N]⟩ v hc) hb = vecb v M := by
  funext i
  obtain ⟨r, c, rfl⟩ : ∃ (r : Fin M) (c : Fin N), i = ix2 r c := ⟨i 0, i 1, eq_ix2 i⟩
  rw [broadcastTo_1b_ab_apply, shapeCast_a_1a_apply]
  rfl

/-- A vector repeated down M rows by the host's two broadcasts (the reference's bias vector). -/
theorem hostVec_rowb (v : FVec Ideal ⟨1, ![N]⟩ .f32)
    (d1 : Fin 1 → Fin 2) (hd1 : d1 = ![1]) (hb1 : (⟨1, ![N]⟩ : Shape).BroadcastsInDim ⟨2, ![1, N]⟩ d1)
    (d2 : Fin 2 → Fin 2) (hd2 : d2 = ![0, 1]) (hb2 : (⟨2, ![1, N]⟩ : Shape).BroadcastsInDim ⟨2, ![M, N]⟩ d2) :
    broadcastInDim ⟨2, ![M, N]⟩ d2 hb2 (broadcastInDim ⟨2, ![1, N]⟩ d1 hb1 v) = vecb v M := by
  subst hd1 hd2
  funext i
  obtain ⟨r, c, rfl⟩ : ∃ (r : Fin M) (c : Fin N), i = ix2 r c := ⟨i 0, i 1, eq_ix2 i⟩
  rw [broadcastInDim_apply _ hb2 _ (ix2 r c) (ix2 (0 : Fin 1) c) (fun a => by
    match a with
    | ⟨0, _⟩ => rfl
    | ⟨1, _⟩ =>
      show c.val = if N = 1 then 0 else c.val
      split
      · have := c.isLt; omega
      · rfl)]
  rw [broadcastInDim_apply _ hb1 _ (ix2 (0 : Fin 1) c) (ix1 c) (fun a => by
    match a with
    | ⟨0, _⟩ =>
      show c.val = if N = 1 then 0 else c.val
      split
      · have := c.isLt; omega
      · rfl)]
  rfl

/-! ## The host's transcendentals -/

/-- The host's 1 / (1 + exp (−x)), its ones splats of the word of 1.0, is the logistic function. -/
theorem hostLogistic (x : Mat M N) (dims : Fin 0 → Fin 2) (h h' : (⟨0, ![]⟩ : Shape).BroadcastsInDim ⟨2, ![M, N]⟩ dims) :
    Host.divf (broadcastInDim ⟨2, ![M, N]⟩ dims h (constant (F := Ideal) ⟨0, ![]⟩ .f32 0x3F800000#32))
      (addf (broadcastInDim ⟨2, ![M, N]⟩ dims h' (constant (F := Ideal) ⟨0, ![]⟩ .f32 0x3F800000#32)) (Host.exp (Host.negf x)))
      = logistic x := by
  funext i
  show Ideal.div (Ideal.ofBits .f32 0x3F800000#32) (Ideal.ofBits .f32 0x3F800000#32 + Ideal.exp (-(x i))) = Ideal.logistic (x i)
  rw [one_word]
  rfl

/-- The host's tanh is the kernel's. -/
theorem hostTanh (x : Mat M N) : Host.tanh x = tanh x := rfl

end Cert.WholeMat

end
-- ==== Proof.LibFinite.lean ====
/-
  Extended reals that are real numbers: the variance identity.

  Over the extended reals, "mean of squares minus square of mean" and "mean of squared deviations" agree
  when every entry of the column is a real number: then every sum, quotient by the (nonzero) count and
  product below is the extended real of the corresponding real expression, and the identity is the
  textbook one over the reals.
-/
import Idealize.ShloMosaic.PureOps.Ideal.Laws
import Mathlib.Algebra.BigOperators.Field
import Mathlib.Tactic.FieldSimp
import Mathlib.Tactic.Ring

noncomputable section

open scoped BigOperators

namespace Cert.Fin

open Idealize.ShloMosaic

/-- Every entry of the family is (the extended real of) a real number. -/
def AllReal {ι : Type*} (v : ι → EReal) : Prop := ∀ i, ∃ r : ℝ, v i = (r : EReal)

/-- A family of reals, seen in the extended reals, is all real. -/
theorem allReal_coe {ι : Type*} (f : ι → ℝ) : AllReal (fun i => (f i : EReal)) := fun i => ⟨f i, rfl⟩

/-- An all-real family is the extended-real image of a family of reals. -/
theorem AllReal.exists_fun {ι : Type*} {v : ι → EReal} (h : AllReal v) :
    ∃ f : ι → ℝ, v = fun i => (f i : EReal) := by
  choose f hf using h
  exact ⟨f, funext hf⟩

/-- The extended real of a finite sum of reals is the sum of the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

/-- A finite sum of reals is real, when only the summands in the range are known to be real. -/
theorem sum_real_of_mem {ι : Type*} (s : Finset ι) (f : ι → EReal)
    (h : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨ra, hra⟩ := h a (Finset.mem_insert_self a s)
    obtain ⟨rs, hrs⟩ := ih (fun i hi => h i (Finset.mem_insert_of_mem hi))
    exact ⟨ra + rs, by rw [Finset.sum_insert ha, hra, hrs, EReal.coe_add]⟩

/-- The sum of two reals is real. -/
theorem add_real {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- The difference of two reals is real. -/
theorem sub_real {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩

/-- The product of two reals is real. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- The maximum of two reals is real. -/
theorem max_real {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb
  rcases le_total x y with h | h
  · exact ⟨y, max_eq_right (EReal.coe_le_coe_iff.mpr h)⟩
  · exact ⟨x, max_eq_left (EReal.coe_le_coe_iff.mpr h)⟩

/-- A real divided by a nonzero real is real. -/
theorem div_real {a b : EReal} (ha : ∃ r : ℝ, a = (r : EReal)) (hb : ∃ r : ℝ, r ≠ 0 ∧ b = (r : EReal)) :
    ∃ r : ℝ, Ideal.div a b = (r : EReal) := by
  obtain ⟨x, rfl⟩ := ha; obtain ⟨y, hy, rfl⟩ := hb
  exact ⟨x * (1 / y), by rw [Ideal.div_coe hy, EReal.coe_mul]⟩

/-! ## The variance identity -/

/-- The real identity behind the variance: with `S = ∑ f`, `Q = ∑ f²` and `n ≠ 0` entries,
    `Q/n − (S/n)² = (∑ (f − S/n)²)/n`. -/
theorem var_identity_real {n : ℕ} (hn : 0 < n) (f : Fin n → ℝ) :
    (∑ r, f r * f r) * (1 / (n : ℝ)) - (∑ r, f r) * (1 / (n : ℝ)) * ((∑ r, f r) * (1 / (n : ℝ)))
      = (∑ r, (f r - (∑ r, f r) * (1 / (n : ℝ))) * (f r - (∑ r, f r) * (1 / (n : ℝ)))) * (1 / (n : ℝ)) := by
  have hn0 : (n : ℝ) ≠ 0 := by exact_mod_cast hn.ne'
  set S : ℝ := ∑ r, f r with hS
  set m : ℝ := S * (1 / (n : ℝ)) with hm
  have hexp : ∀ r, (f r - m) * (f r - m) = f r * f r - 2 * m * f r + m * m := fun r => by ring
  have hsum : ∑ r, (f r - m) * (f r - m) = (∑ r, f r * f r) - 2 * m * S + (n : ℝ) * (m * m) := by
    simp_rw [hexp]
    rw [Finset.sum_add_distrib, Finset.sum_sub_distrib, ← Finset.mul_sum, Finset.sum_const, Finset.card_univ,
      Fintype.card_fin, nsmul_eq_mul]
  rw [hsum, hm]
  field_simp
  ring

/-- Variance two ways. For a column `x` of `n > 0` real entries and `N` the count `n`: the mean of the squares
    minus the square of the mean is the mean of the squared deviations from the mean (each sum on the right
    started from zero, as a reduction from a zero initial value is). -/
theorem var_identity {n : ℕ} (hn : 0 < n) (x : Fin n → EReal) (hx : AllReal x) (N : EReal)
    (hN : N = ((n : ℝ) : EReal)) :
    Ideal.div (∑ r, x r * x r) N - Ideal.div (∑ r, x r) N * Ideal.div (∑ r, x r) N
      = Ideal.div (0 + ∑ r, (x r - Ideal.div (0 + ∑ r, x r) N) * (x r - Ideal.div (0 + ∑ r, x r) N)) N := by
  have hn0 : (n : ℝ) ≠ 0 := by exact_mod_cast hn.ne'
  obtain ⟨f, rfl⟩ := hx.exists_fun
  subst hN
  simp only [zero_add, Ideal.div_coe hn0, ← EReal.coe_mul, ← coe_sum, ← EReal.coe_sub]
  rw [var_identity_real hn f]

/-- The mean of a real column is real. -/
theorem mean_real {n : ℕ} (hn : 0 < n) (x : Fin n → EReal) (hx : AllReal x) (N : EReal)
    (hN : N = ((n : ℝ) : EReal)) : ∃ m : ℝ, Ideal.div (0 + ∑ r, x r) N = (m : EReal) := by
  have hn0 : (n : ℝ) ≠ 0 := by exact_mod_cast hn.ne'
  obtain ⟨f, rfl⟩ := hx.exists_fun
  subst hN
  exact ⟨(∑ r, f r) * (1 / (n : ℝ)), by simp only [zero_add, Ideal.div_coe hn0, ← EReal.coe_mul, ← coe_sum]⟩

/-- The variance of a real column is a nonnegative real. -/
theorem var_nonneg_real {n : ℕ} (hn : 0 < n) (x : Fin n → EReal) (hx : AllReal x) (N : EReal)
    (hN : N = ((n : ℝ) : EReal)) :
    ∃ v : ℝ, 0 ≤ v ∧
      Ideal.div (0 + ∑ r, (x r - Ideal.div (0 + ∑ r, x r) N) * (x r - Ideal.div (0 + ∑ r, x r) N)) N
        = (v : EReal) := by
  have hn0 : (n : ℝ) ≠ 0 := by exact_mod_cast hn.ne'
  obtain ⟨f, rfl⟩ := hx.exists_fun
  subst hN
  refine ⟨(∑ r, (f r - (∑ r, f r) * (1 / (n : ℝ))) * (f r - (∑ r, f r) * (1 / (n : ℝ)))) * (1 / (n : ℝ)), ?_, ?_⟩
  · apply mul_nonneg
    · exact Finset.sum_nonneg (fun r _ => mul_self_nonneg _)
    · positivity
  · simp only [zero_add, Ideal.div_coe hn0, ← EReal.coe_mul, ← coe_sum, ← EReal.coe_sub]

end Cert.Fin
-- ==== Proof.LibGcnSpec.lean ====
/-
  The mathematics of one graph-convolution layer, on whole matrices of extended reals.

  A graph on N nodes is given by E edges; edge e reads node `srcRow e` (its source number, read signed and clamped
  into the node range) and is delivered to the node whose number, read signed, is the edge's destination number (an
  edge whose destination number is outside the node range is delivered nowhere). With per-node scale factors
  `ns` (for sources) and `nd` (for destinations) the normalised aggregation of a node-by-feature matrix X is

      agg X (n, j) = (0 + ∑ over the edges e delivered to n of X (srcRow e, j) · ns (srcRow e)) · nd n.

  A layer is an aggregation, a matrix product with a weight matrix, a bias added to every row, and possibly a
  rectification (the maximum with zero). The aggregation is linear in X, so for real entries it commutes with the
  product on the right: agg (X · W) = (agg X) · W. That law is proved elsewhere; here are the definitions.
-/
import Idealize.ShloMosaic.Lib.ValueIdx
import Idealize.ShloMosaic.PureOps.Ideal.Laws
import proofs.«128478_j30691836297929_1_alg».proof.Proof.LibWholeMat
import proofs.«128478_j30691836297929_1_alg».proof.Proof.LibFinite

noncomputable section

open scoped BigOperators

namespace Cert.Gcn

open Idealize.ShloMosaic Idealize.ShloMosaic.ValueIdx Cert.WholeMat

/-- A vector of N extended reals. -/
abbrev RVec (N : Nat) : Type := FVec Ideal ⟨1, ![N]⟩ .f32

/-- A column of E signed 32-bit node numbers. -/
abbrev Col (E : Nat) : Type := IVec ⟨2, ![E, 1]⟩ 32

variable {N W K E : Nat}

/-- The node that edge `e` reads: its source number, read signed and clamped into the node range. -/
def srcRow (hN : 0 < N) (srcc : Col E) (e : Fin E) : Fin N :=
  ⟨min (srcc (ix2 e (0 : Fin 1))).toInt.toNat (N - 1), by omega⟩

/-- The edges delivered to node `n`: those whose destination number, read signed, is `n`. -/
def inEdges (dstc : Col E) (n : Nat) : Finset (Fin E) :=
  Finset.univ.filter (fun e : Fin E => (dstc (ix2 e (0 : Fin 1))).toInt = (n : Int))

/-- The normalised aggregation of a node-by-feature matrix along the edges. -/
def agg (hN : 0 < N) (ns nd : RVec N) (srcc dstc : Col E) (X : Mat N W) : Mat N W :=
  fun i => (0 + ∑ e ∈ inEdges dstc (i 0).val,
      X (ix2 (srcRow hN srcc e) ⟨(i 1).val, idx2_lt1 i⟩) * ns (ix1 (srcRow hN srcc e)))
    * nd (ix1 ⟨(i 0).val, idx2_lt0 i⟩)

theorem agg_apply (hN : 0 < N) (ns nd : RVec N) (srcc dstc : Col E) (X : Mat N W) (n : Fin N) (j : Fin W) :
    agg hN ns nd srcc dstc X (ix2 n j)
      = (0 + ∑ e ∈ inEdges dstc n.val, X (ix2 (srcRow hN srcc e) j) * ns (ix1 (srcRow hN srcc e))) * nd (ix1 n) := rfl

/-- A one-row matrix added to every row. -/
def addRow (X : Mat N W) (b : Mat 1 W) : Mat N W := fun i => X i + b (ix2 (0 : Fin 1) ⟨(i 1).val, idx2_lt1 i⟩)

theorem addRow_apply (X : Mat N W) (b : Mat 1 W) (n : Fin N) (j : Fin W) :
    addRow X b (ix2 n j) = X (ix2 n j) + b (ix2 (0 : Fin 1) j) := rfl

/-- A vector added to every row. -/
def addVec (X : Mat N W) (b : RVec W) : Mat N W := fun i => X i + b (ix1 ⟨(i 1).val, idx2_lt1 i⟩)

theorem addVec_apply (X : Mat N W) (b : RVec W) (n : Fin N) (j : Fin W) :
    addVec X b (ix2 n j) = X (ix2 n j) + b (ix1 j) := rfl

/-- The rectification: the maximum with zero, entry by entry. -/
def relu (X : Mat N W) : Mat N W := fun i => max (X i) 0

theorem relu_apply (X : Mat N W) (i : (⟨2, ![N, W]⟩ : Shape).Idx) : relu X i = max (X i) 0 := rfl

end Cert.Gcn

end
-- ==== Proof.LibGatherScatter.lean ====
/-
  General facts about two host operations on a matrix indexed by a one-column table of row numbers.

  * Row gather: `x[row]` of a matrix or a vector at an `[E, 1]` column of row numbers reads, at entry
    `(e, j)`, row `row[e]` (read signed and clamped into the operand) at column `j`.
  * Row scatter-add: an update row `e` lands on row `n` of the operand exactly when `row[e]`, read
    signed and not clamped, is `n`, and then column by column.
  * Algebra over the extended reals: a nonnegative real factor moves into a finite sum, so scaling a
    scatter-add of rows is the scatter-add of the scaled rows.
  * Words: a nonnegative signed 32-bit row number is left alone by the negative-index normalisation, and
    clamping a row number that is in range does nothing.
-/
import Idealize.ShloMosaic.Lib.ValueIdx
import Idealize.ShloMosaic.Lib.Affine

noncomputable section

open scoped BigOperators

namespace Cert.GatherScatter

open Idealize.ShloMosaic Idealize.ShloMosaic.ValueIdx

/-! ## Algebra: a nonnegative real factor and a finite sum of extended reals -/

/-- A nonnegative real factor moves into a finite sum of extended reals: right distributivity holds for a
    factor that is neither negative nor infinite, whatever the summands. -/
theorem sum_mul_coe_of_nonneg {ι : Type*} (s : Finset ι) (f : ι → EReal) (r : ℝ) (hr : 0 ≤ r) :
    (∑ q ∈ s, f q) * (r : EReal) = ∑ q ∈ s, f q * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- Scaling a scatter-add into zero: when every update `q` that lands on `i` has `v q = u q * r` for a
    nonnegative real `r`, the accumulated sum of the `u` at `i`, times `r`, is the accumulated sum of the `v`. -/
theorem scatter_scale {ι κ : Type} [Fintype ι] (land : ι → Option κ) (i : κ)
    [DecidablePred fun q => land q = some i] (u v : ι → EReal) (r : ℝ) (hr : 0 ≤ r)
    (h : ∀ q, land q = some i → v q = u q * (r : EReal)) :
    ((0 : EReal) + ∑ q ∈ Finset.univ.filter (fun q => land q = some i), u q) * (r : EReal)
      = 0 + ∑ q ∈ Finset.univ.filter (fun q => land q = some i), v q := by
  rw [zero_add, zero_add, sum_mul_coe_of_nonneg _ _ r hr]
  refine Finset.sum_congr rfl fun q hq => ?_
  rw [h q (Finset.mem_filter.mp hq).2]

/-! ## Row scatter: updates `[E, W]` into an operand `[N, W]` at an `[E, 1]` column of row numbers -/

/-- The dimension numbers of a scatter of whole rows: update row `e` goes to the operand row named by
    `idx[e, 0]`, column by column. Their conditions `wf` are decided on a program's literal shapes. -/
abbrev rowScatterDims (N W E : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section RowScatter
variable {N W E w : Nat} (wf : ScatterDims.WF ⟨2, ![N, W]⟩ ⟨2, ![E, 1]⟩ ⟨2, ![E, W]⟩ [1] [0] [0] 1)

/-- On the row axis the window of update `(e, j')` starts at the row number `idx[e, 0]`, read signed. -/
theorem rowScatter_start_row (idx : IVec ⟨2, ![E, 1]⟩ w) (e : Fin E) (j' : Fin W) :
    (rowScatterDims N W E wf).start (ix2 e j') idx 0 = (idx (ix2 e (0 : Fin 1))).toInt := by
  unfold ScatterDims.start
  rw [dif_pos (show (0 : Fin 2) ∈ (rowScatterDims N W E wf).scatterDimsToOperandDims from List.mem_singleton.mpr rfl)]
  have hsi : (rowScatterDims N W E wf).siIdx (ix2 e j') ⟨List.idxOf (0 : Fin 2) (rowScatterDims N W E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter indices name rows only. -/
theorem rowScatter_start_col (idx : IVec ⟨2, ![E, 1]⟩ w) (e : Fin E) (j' : Fin W) :
    (rowScatterDims N W E wf).start (ix2 e j') idx 1 = 0 := by
  unfold ScatterDims.start
  rw [dif_neg (show (1 : Fin 2) ∉ (rowScatterDims N W E wf).scatterDimsToOperandDims from
    show (1 : Fin 2) ∉ [(0 : Fin 2)] by decide)]

/-- The row axis is inserted: the window coordinate on it is `0`. -/
theorem rowScatter_window_row (e : Fin E) (j' : Fin W) : (rowScatterDims N W E wf).window (ix2 e j') 0 = 0 := by
  unfold ScatterDims.window
  rw [dif_neg (show (0 : Fin 2) ∉ (rowScatterDims N W E wf).sKept from
    show (0 : Fin 2) ∉ (List.finRange 2).filter (· ∉ [(0 : Fin 2)]) by decide)]

/-- On the column axis the window coordinate is the update's column. -/
theorem rowScatter_window_col (e : Fin E) (j' : Fin W) : (rowScatterDims N W E wf).window (ix2 e j') 1 = j'.val := by
  unfold ScatterDims.window
  rw [dif_pos (show (1 : Fin 2) ∈ (rowScatterDims N W E wf).sKept from
    show (1 : Fin 2) ∈ (List.finRange 2).filter (· ∉ [(0 : Fin 2)]) by decide)]
  rfl

/-- WHERE A ROW UPDATE LANDS: update `(e, j')` lands on operand entry `(n, j)` exactly when the row number
    `idx[e, 0]`, read signed and not clamped, is `n`, and the columns agree. A row number outside the operand
    lands nowhere. -/
theorem rowScatter_lands_iff (idx : IVec ⟨2, ![E, 1]⟩ w) (e : Fin E) (j' : Fin W) (n : Fin N) (j : Fin W) :
    (rowScatterDims N W E wf).resultIdx? (ix2 e j') idx = some (ix2 n j)
      ↔ (idx (ix2 e (0 : Fin 1))).toInt = (n.val : Int) ∧ j' = j := by
  have h0 := rowScatter_start_row wf idx e j'
  have h1 := rowScatter_start_col wf idx e j'
  have g0 := rowScatter_window_row (N := N) wf e j'
  have g1 := rowScatter_window_col (N := N) wf e j'
  unfold ScatterDims.resultIdx?
  split
  · rename_i h
    rw [Option.some.injEq]
    constructor
    · intro hf
      have e0 := congrArg (fun f => (f 0).val) hf
      have e1 := congrArg (fun f => (f 1).val) hf
      simp only [h0, h1, g0, g1] at e0 e1
      have hh := (h 0).1
      rw [h0, g0] at hh
      change _ = n.val at e0
      change _ = j.val at e1
      refine ⟨by omega, Fin.ext (by omega)⟩
    · rintro ⟨hr, rfl⟩
      funext a
      refine Fin.ext ?_
      match a with
      | ⟨0, _⟩ => show ((rowScatterDims N W E wf).start (ix2 e j') idx 0 + ((rowScatterDims N W E wf).window (ix2 e j') 0 : Int)).toNat = n.val; rw [h0, g0, hr]; omega
      | ⟨1, _⟩ => show ((rowScatterDims N W E wf).start (ix2 e j') idx 1 + ((rowScatterDims N W E wf).window (ix2 e j') 1 : Int)).toNat = j'.val; rw [h1, g1]; omega
  · rename_i h
    constructor
    · intro hf; exact absurd hf (by simp)
    · rintro ⟨hr, rfl⟩
      exfalso; apply h
      intro a
      match a with
      | ⟨0, _⟩ =>
        show 0 ≤ (rowScatterDims N W E wf).start (ix2 e j') idx 0 + ((rowScatterDims N W E wf).window (ix2 e j') 0 : Int) ∧
          (rowScatterDims N W E wf).start (ix2 e j') idx 0 + ((rowScatterDims N W E wf).window (ix2 e j') 0 : Int) < (N : Int)
        rw [h0, g0, hr]; have := n.isLt; omega
      | ⟨1, _⟩ =>
        show 0 ≤ (rowScatterDims N W E wf).start (ix2 e j') idx 1 + ((rowScatterDims N W E wf).window (ix2 e j') 1 : Int) ∧
          (rowScatterDims N W E wf).start (ix2 e j') idx 1 + ((rowScatterDims N W E wf).window (ix2 e j') 1 : Int) < (W : Int)
        rw [h1, g1]; have := j'.isLt; omega

end RowScatter

/-! ## Vector scatter: updates `[E]` into an operand `[N]` at an `[E, 1]` column of element numbers -/

/-- The dimension numbers of a scatter of single elements: update `e` goes to the operand element named by
    `idx[e, 0]`. Their conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable {N E w : Nat} (wf : ScatterDims.WF ⟨1, ![N]⟩ ⟨2, ![E, 1]⟩ ⟨1, ![E]⟩ [] [0] [0] 1)

/-- The window of update `e` starts at the element number `idx[e, 0]`, read signed. -/
theorem vecScatter_start (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate on it is `0`. -/
theorem vecScatter_window (e : Fin E) : (vecScatterDims N E wf).window (ix1 e) 0 = 0 := by
  unfold ScatterDims.window
  rw [dif_neg (show (0 : Fin 1) ∉ (vecScatterDims N E wf).sKept from
    show (0 : Fin 1) ∉ (List.finRange 1).filter (· ∉ [(0 : Fin 1)]) by decide)]

/-- WHERE AN ELEMENT UPDATE LANDS: update `e` lands on operand element `n` exactly when the element number
    `idx[e, 0]`, read signed and not clamped, is `n`. A number outside the operand lands nowhere. -/
theorem vecScatter_lands_iff (idx : IVec ⟨2, ![E, 1]⟩ w) (e : Fin E) (n : Fin N) :
    (vecScatterDims N E wf).resultIdx? (ix1 e) idx = some (ix1 n)
      ↔ (idx (ix2 e (0 : Fin 1))).toInt = (n.val : Int) := by
  have h0 := vecScatter_start wf idx e
  have g0 := vecScatter_window (N := N) wf e
  unfold ScatterDims.resultIdx?
  split
  · rename_i h
    rw [Option.some.injEq]
    constructor
    · intro hf
      have e0 := congrArg (fun f => (f 0).val) hf
      simp only [h0, g0] at e0
      change _ = n.val at e0
      have hh := (h 0).1
      rw [h0, g0] at hh
      omega
    · intro hr
      funext a
      obtain rfl : a = 0 := Subsingleton.elim _ _
      refine Fin.ext ?_
      show ((vecScatterDims N E wf).start (ix1 e) idx 0 + ((vecScatterDims N E wf).window (ix1 e) 0 : Int)).toNat = n.val
      rw [h0, g0, hr]; omega
  · rename_i h
    constructor
    · intro hf; exact absurd hf (by simp)
    · intro hr
      exfalso; apply h
      intro a
      obtain rfl : a = 0 := Subsingleton.elim _ _
      show 0 ≤ (vecScatterDims N E wf).start (ix1 e) idx 0 + ((vecScatterDims N E wf).window (ix1 e) 0 : Int) ∧
        (vecScatterDims N E wf).start (ix1 e) idx 0 + ((vecScatterDims N E wf).window (ix1 e) 0 : Int) < (N : Int)
      rw [h0, g0, hr]; have := n.isLt; omega

end VecScatter

/-! ## Row gather: rows of a matrix `[N, W]` at an `[E, 1]` column of row numbers -/

/-- The dimension numbers of `x[row]` for a matrix `x : [N, W]` and row numbers `[E, 1]`: result row `e` is the
    whole operand row named by `idx[e, 0]`. Their conditions `wf` are decided on a program's literal shapes. -/
abbrev rowGatherDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- THE ROW GATHER READ AT `(e, j)`: the operand at row `idx[e, 0]`, read signed and clamped into `[0, N − 1]`,
    and column `j`. -/
theorem rowGather_apply {N W E w : Nat} (hN : 0 < N)
    (wf : GatherDims.WF ⟨2, ![N, W]⟩ ⟨2, ![E, 1]⟩ ⟨2, ![E, W]⟩ [1] [0] [] [0] [] 1 ![1, W]) {α : Type}
    (x : (⟨2, ![N, W]⟩ : Shape).Idx → α) (idx : IVec ⟨2, ![E, 1]⟩ w) (e : Fin E) (j : Fin W) :
    Host.gather (rowGatherDims N W E wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    show (rowGatherDims N W E wf).start (ix2 e j) idx 0 + (rowGatherDims N W E wf).batchCoord (ix2 e j) 0
      + (rowGatherDims N W E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N W E wf).startIndexMap from List.mem_singleton.mpr rfl)]
    have hsi : (rowGatherDims N W E wf).siIdx (ix2 e j) ⟨List.idxOf (0 : Fin 2) (rowGatherDims N W E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N W E wf).start (ix2 e j) idx 1 + (rowGatherDims N W E wf).batchCoord (ix2 e j) 1
      + (rowGatherDims N W E wf).offCoord (ix2 e j) 1 = j.val
    rw [GatherDims.batchCoord_eq_zero _ _ _ List.not_mem_nil]
    unfold GatherDims.start GatherDims.offCoord
    rw [dif_neg (show (1 : Fin 2) ∉ (rowGatherDims N W E wf).startIndexMap from
        show (1 : Fin 2) ∉ [(0 : Fin 2)] by decide),
      dif_pos (show (1 : Fin 2) ∈ (rowGatherDims N W E wf).sKept from
        show (1 : Fin 2) ∈ (List.finRange 2).filter (· ∉ [(0 : Fin 2)] ++ []) by decide)]
    simp only [Nat.zero_add]
    rfl

/-! ## Row gather of a vector `[N]` at an `[E, 1]` column of row numbers -/

/-- The dimension numbers of `x[row]` for a vector `x : [N]` and row numbers `[E, 1]`: result element `e` is the
    operand element named by `idx[e, 0]`. Their conditions `wf` are decided on a program's literal shapes. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `idx[e, 0]`, read signed and clamped into `[0, N − 1]`. -/
theorem vecGather_apply {N E w : Nat} (hN : 0 < N)
    (wf : GatherDims.WF ⟨1, ![N]⟩ ⟨2, ![E, 1]⟩ ⟨1, ![E]⟩ [] [0] [] [0] [] 1 ![1]) {α : Type}
    (x : (⟨1, ![N]⟩ : Shape).Idx → α) (idx : IVec ⟨2, ![E, 1]⟩ w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The accumulating scatters read at an entry -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ROW SCATTER-ADD READ AT `(n, j)`: the operand there plus column `j` of every update row whose row
    number, read signed, is `n`. -/
theorem rowScatterAdd_apply {N W E w : Nat} (wf : ScatterDims.WF ⟨2, ![N, W]⟩ ⟨2, ![E, 1]⟩ ⟨2, ![E, W]⟩ [1] [0] [0] 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd (rowScatterDims N W E wf) x idx upd (ix2 n j)
      = x (ix2 n j)
        + ∑ e ∈ Finset.univ.filter (fun e : Fin E => (idx (ix2 e (0 : Fin 1))).toInt = (n.val : Int)), upd (ix2 e j) := by
  unfold Ideal.hostScatterAdd
  congr 1
  rw [Finset.sum_filter, sum_idx2, Finset.sum_filter]
  refine Finset.sum_congr rfl fun e _ => ?_
  simp only [rowScatter_lands_iff wf idx e _ n j]
  by_cases hr : (idx (ix2 e (0 : Fin 1))).toInt = (n.val : Int)
  · simp only [hr, true_and, if_true]
    rw [Finset.sum_ite_eq' Finset.univ j (fun j' => upd (ix2 e j'))]
    simp
  · simp only [hr, false_and, if_false, Finset.sum_const_zero]

/-- THE VECTOR SCATTER-ADD READ AT `n`: the operand there plus every update whose element number, read
    signed, is `n`. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n)
        + ∑ e ∈ Finset.univ.filter (fun e : Fin E => (idx (ix2 e (0 : Fin 1))).toInt = (n.val : Int)), upd (ix1 e) := by
  unfold Ideal.hostScatterAdd
  congr 1
  rw [Finset.sum_filter, sum_idx1, Finset.sum_filter]
  refine Finset.sum_congr rfl fun e _ => ?_
  simp only [vecScatter_lands_iff wf idx e n]

/-- Scaling a row scatter-add into zeros by a nonnegative real: when every update row `e` whose row number is `n`
    has `v (e, j) = u (e, j) * r`, the scatter-add of `u` at `(n, j)`, times `r`, is the scatter-add of `v` there. -/
theorem rowScatterAdd_zero_scale {N W E w : Nat}
    (wf : ScatterDims.WF ⟨2, ![N, W]⟩ ⟨2, ![E, 1]⟩ ⟨2, ![E, W]⟩ [1] [0] [0] 1) (idx : IVec ⟨2, ![E, 1]⟩ w)
    (u v : (⟨2, ![E, W]⟩ : Shape).Idx → EReal) (r : ℝ) (hr : 0 ≤ r) (n : Fin N) (j : Fin W)
    (h : ∀ e : Fin E, (idx (ix2 e (0 : Fin 1))).toInt = (n.val : Int) → v (ix2 e j) = u (ix2 e j) * (r : EReal)) :
    Ideal.hostScatterAdd (rowScatterDims N W E wf) (fun _ => 0) idx u (ix2 n j) * (r : EReal)
      = Ideal.hostScatterAdd (rowScatterDims N W E wf) (fun _ => 0) idx v (ix2 n j) := by
  rw [rowScatterAdd_apply, rowScatterAdd_apply, zero_add, zero_add, sum_mul_coe_of_nonneg _ _ r hr]
  refine Finset.sum_congr rfl fun e he => ?_
  rw [h e (Finset.mem_filter.mp he).2]

/-! ## Words: a signed row number that is in range -/

/-- The negative-index normalisation `if c < 0 then c + k else c` leaves a nonnegative signed word alone. -/
theorem wrapIndex_of_nonneg {w : Nat} (c k : BitVec w) (hc : 0 ≤ c.toInt) :
    Scalar.select (IntOp.cmpi .slt c 0#w) (IntOp.addi c k) c = c := by
  have hne : ¬IntOp.cmpi .slt c 0#w = 1#1 := fun h => by
    have := IntOp.cmpi_slt.mp h
    rw [BitVec.toInt_zero] at this
    omega
  rw [eq_zero_of_ne_one hne, select_zero]

/-- The same on vectors, read at an index: where the row number is nonnegative (and the vector compared
    against reads zero there) the normalised vector reads the row number. -/
theorem wrapIndex_apply {s : Shape} {w : Nat} (row zero k : IVec s w) (i : s.Idx) (hz : zero i = 0#w)
    (h : 0 ≤ (row i).toInt) : select (cmpi .slt row zero) (addi row k) row i = row i := by
  show Scalar.select (IntOp.cmpi .slt (row i) (zero i)) (IntOp.addi (row i) (k i)) (row i) = row i
  rw [hz]
  exact wrapIndex_of_nonneg (row i) (k i) h

/-- Clamping a row number that is in range does nothing: a signed word that reads `n`, for `n` below `N`,
    clamped into `[0, N − 1]` is `n`. -/
theorem clamp_of_toInt_eq {w N : Nat} (c : BitVec w) (n : Fin N) (h : c.toInt = (n.val : Int)) :
    min c.toInt.toNat (N - 1) = n.val := by
  have := n.isLt
  rw [h]
  omega

end Cert.GatherScatter

end
-- ==== Proof.LibFiniteB.lean ====
/-
  Extended reals that are real numbers: the elementwise operations keep them real.

  Each lemma says: if the float operands of an operation are real at every entry, so is its result. Sums,
  differences, products and maxima of reals are real; a broadcast and a select only move entries around; a
  quotient by a nonzero real is real; the reciprocal square root of a positive real is a positive real. The
  four constants met here — 0, 1, 100000 and the single-precision number nearest 1e-5 — are read off their
  bit patterns.
-/
import proofs.«128478_j30691836297929_1_alg».proof.Proof.LibFinite
import Mathlib.Tactic.NormNum

noncomputable section

open scoped BigOperators

namespace Cert.Fin

open Idealize.ShloMosaic

variable {s t : Shape}

/-! ## Pointwise arithmetic -/

/-- The entrywise sum of two real vectors is real. -/
theorem allReal_addf {φ : FTy} {x y : FVec Ideal s φ} (hx : AllReal x) (hy : AllReal y) : AllReal (addf x y) :=
  fun i => add_real (hx i) (hy i)

/-- The entrywise difference of two real vectors is real. -/
theorem allReal_subf {φ : FTy} {x y : FVec Ideal s φ} (hx : AllReal x) (hy : AllReal y) : AllReal (subf x y) :=
  fun i => sub_real (hx i) (hy i)

/-- The entrywise product of two real vectors is real. -/
theorem allReal_mulf {φ : FTy} {x y : FVec Ideal s φ} (hx : AllReal x) (hy : AllReal y) : AllReal (mulf x y) :=
  fun i => mul_real (hx i) (hy i)

/-- The entrywise maximum of two real vectors is real. -/
theorem allReal_maximumf {φ : FTy} {x y : FVec Ideal s φ} (hx : AllReal x) (hy : AllReal y) :
    AllReal (maximumf x y) :=
  fun i => max_real (hx i) (hy i)

/-- The maximum of a real vector with the constant one is real and at least one, entry by entry. -/
theorem maximumf_one_ge_one {φ : FTy} {x y : FVec Ideal s φ} (hx : AllReal x) (hy : ∀ i, y i = 1) :
    ∀ i, ∃ r : ℝ, 1 ≤ r ∧ maximumf x y i = (r : EReal) := by
  intro i
  obtain ⟨a, ha⟩ := hx i
  refine ⟨max a 1, le_max_right a 1, ?_⟩
  show max (x i) (y i) = _
  rw [ha, hy i, ← EReal.coe_one]
  exact (EReal.coe_strictMono.monotone.map_max).symm

/-! ## Layout: broadcasts, constants, selects -/

/-- Every entry of a broadcast is an entry of its operand. -/
theorem allReal_broadcastInDim (t : Shape) (dims : Fin s.rank → Fin t.rank) (h : s.BroadcastsInDim t dims)
    {x : s.Idx → EReal} (hx : AllReal x) : AllReal (broadcastInDim t dims h x) :=
  fun _ => hx _

/-- A broadcast of a vector that is one value everywhere is that value everywhere. -/
theorem broadcastInDim_const (t : Shape) (dims : Fin s.rank → Fin t.rank) (h : s.BroadcastsInDim t dims)
    {x : s.Idx → EReal} {c : EReal} (hx : ∀ i, x i = c) : ∀ j, broadcastInDim t dims h x j = c :=
  fun _ => hx _

/-- Every entry of a select is an entry of one of its two branches. -/
theorem allReal_select {c : IVec s 1} {a b : s.Idx → EReal} (ha : AllReal a) (hb : AllReal b) :
    AllReal (select c a b) := by
  intro i
  show ∃ r : ℝ, (if c i = 1 then a i else b i) = (r : EReal)
  split
  · exact ha i
  · exact hb i

/-! ## The constants -/

/-- The pattern of `0.0` denotes `0`. -/
theorem ofBits_zero : Ideal.ofBits .f32 0x00000000#32 = 0 := Ideal.ofBits_zero_f32

/-- The pattern of `1.0` denotes `1`. -/
theorem ofBits_one : Ideal.ofBits .f32 0x3F800000#32 = ((1 : ℝ) : EReal) := by
  simp [Ideal.ofBits, Ideal.ieee, -EReal.coe_mul]; norm_num

/-- The pattern of `100000.0` denotes the real `100000`. -/
theorem ofBits_100000 : Ideal.ofBits .f32 0x47C35000#32 = ((100000 : ℝ) : EReal) := by
  simp [Ideal.ofBits, Ideal.ieee, -EReal.coe_mul]; norm_num

/-- The pattern of the single-precision number nearest `1e-5` denotes a positive real. -/
theorem ofBits_eps : ∃ ε : ℝ, 0 < ε ∧ Ideal.ofBits .f32 0x3727C5AC#32 = (ε : EReal) := by
  refine ⟨(10995116 : ℝ) * (2 : ℝ) ^ (-40 : Int), by positivity, ?_⟩
  simp [Ideal.ofBits, Ideal.ieee, -EReal.coe_mul]

/-- A constant vector of the pattern `0.0` is `0` everywhere. -/
theorem constant_zero_apply (S : Shape) (i : S.Idx) : (constant S .f32 0x00000000#32 : FVec Ideal S .f32) i = 0 :=
  ofBits_zero

/-- A constant vector of the pattern `1.0` is `1` everywhere. -/
theorem constant_one_apply (S : Shape) (i : S.Idx) :
    (constant S .f32 0x3F800000#32 : FVec Ideal S .f32) i = ((1 : ℝ) : EReal) :=
  ofBits_one

/-- A constant vector of the pattern `100000.0` is the real `100000` everywhere. -/
theorem constant_100000_apply (S : Shape) (i : S.Idx) :
    (constant S .f32 0x47C35000#32 : FVec Ideal S .f32) i = ((100000 : ℝ) : EReal) :=
  ofBits_100000

/-- The four constant vectors are real. -/
theorem allReal_constant_zero (S : Shape) : AllReal (constant S .f32 0x00000000#32 : FVec Ideal S .f32) :=
  fun i => ⟨0, by rw [constant_zero_apply, EReal.coe_zero]⟩
theorem allReal_constant_one (S : Shape) : AllReal (constant S .f32 0x3F800000#32 : FVec Ideal S .f32) :=
  fun i => ⟨1, constant_one_apply S i⟩
theorem allReal_constant_100000 (S : Shape) : AllReal (constant S .f32 0x47C35000#32 : FVec Ideal S .f32) :=
  fun i => ⟨100000, constant_100000_apply S i⟩
theorem allReal_constant_eps (S : Shape) : AllReal (constant S .f32 0x3727C5AC#32 : FVec Ideal S .f32) := by
  obtain ⟨ε, _, h⟩ := ofBits_eps
  exact fun _ => ⟨ε, h⟩

/-! ## Division -/

/-- A real vector divided entrywise by a vector of nonzero reals is real. -/
theorem allReal_hostDivf {φ : FTy} {x y : FVec Ideal s φ} (hx : AllReal x)
    (hy : ∀ i, ∃ r : ℝ, r ≠ 0 ∧ y i = (r : EReal)) : AllReal (Host.divf x y) :=
  fun i => div_real (hx i) (hy i)

/-- A real vector divided entrywise by one nonzero real `c` (a broadcast constant) is real, and the quotient
    is the product with `1/c`. -/
theorem allReal_hostDivf_const {φ : FTy} {x y : FVec Ideal s φ} (hx : AllReal x) {c : ℝ} (hc : c ≠ 0)
    (hy : ∀ i, y i = (c : EReal)) : AllReal (Host.divf x y) :=
  allReal_hostDivf hx (fun i => ⟨c, hc, hy i⟩)

/-- A real vector divided entrywise by a vector of reals that are at least one is real. -/
theorem allReal_hostDivf_ge_one {φ : FTy} {x y : FVec Ideal s φ} (hx : AllReal x)
    (hy : ∀ i, ∃ r : ℝ, 1 ≤ r ∧ y i = (r : EReal)) : AllReal (Host.divf x y) :=
  allReal_hostDivf hx (fun i => by
    obtain ⟨r, hr, h⟩ := hy i
    exact ⟨r, by linarith, h⟩)

/-! ## Reciprocal square root -/

/-- The reciprocal square root of a positive real is a positive real. -/
theorem rsqrt_pos_real {r : ℝ} (hr : 0 < r) : ∃ q : ℝ, 0 < q ∧ Ideal.rsqrt (r : EReal) = (q : EReal) := by
  refine ⟨(Real.sqrt r)⁻¹, inv_pos.mpr (Real.sqrt_pos.mpr hr), ?_⟩
  rw [Ideal.rsqrt_coe, if_neg (not_lt.mpr hr.le), if_neg hr.ne']

/-- The entrywise reciprocal square root of a vector of positive reals is a vector of positive reals. -/
theorem hostRsqrt_pos {φ : FTy} {v : FVec Ideal s φ} (hv : ∀ i, ∃ r : ℝ, 0 < r ∧ v i = (r : EReal)) :
    ∀ i, ∃ q : ℝ, 0 < q ∧ Host.rsqrt v i = (q : EReal) := by
  intro i
  obtain ⟨r, hr, h⟩ := hv i
  obtain ⟨q, hq, hq'⟩ := rsqrt_pos_real hr
  exact ⟨q, hq, by show Ideal.rsqrt (v i) = _; rw [h, hq']⟩

/-- … in particular it is real. -/
theorem allReal_hostRsqrt {φ : FTy} {v : FVec Ideal s φ} (hv : ∀ i, ∃ r : ℝ, 0 < r ∧ v i = (r : EReal)) :
    AllReal (Host.rsqrt v) := fun i => by
  obtain ⟨q, _, h⟩ := hostRsqrt_pos hv i
  exact ⟨q, h⟩

/-- A nonnegative real plus a positive real is a positive real, entry by entry (a variance plus epsilon). -/
theorem addf_pos {φ : FTy} {x y : FVec Ideal s φ} (hx : ∀ i, ∃ r : ℝ, 0 ≤ r ∧ x i = (r : EReal))
    (hy : ∀ i, ∃ r : ℝ, 0 < r ∧ y i = (r : EReal)) : ∀ i, ∃ r : ℝ, 0 < r ∧ addf x y i = (r : EReal) := by
  intro i
  obtain ⟨a, ha, hxa⟩ := hx i
  obtain ⟨b, hb, hyb⟩ := hy i
  exact ⟨a + b, by linarith, by show x i + y i = _; rw [hxa, hyb, EReal.coe_add]⟩

/-! ## `where(deg > 0, rsqrt(deg), 0)` -/

/-- For a real vector `deg`, the vector that is `rsqrt(deg)` where `deg > 0` (compared with a vector `z` that
    is zero everywhere) and the entry of a real vector `e` elsewhere is real: the reciprocal square root is
    only read at positive reals. -/
theorem where_rsqrt_real {φ : FTy} {deg z e : FVec Ideal s φ} (hdeg : AllReal deg) (hz : ∀ i, z i = 0)
    (he : AllReal e) : AllReal (select (cmpf .ogt deg z) (Host.rsqrt deg) e) := by
  intro i
  obtain ⟨d, hd⟩ := hdeg i
  show ∃ r : ℝ, (if Ideal.cmp .ogt (deg i) (z i) = 1 then Ideal.rsqrt (deg i) else e i) = (r : EReal)
  split
  next hc =>
    have hpos : (0 : EReal) < deg i := by
      have : BitVec.ofBool (decide (z i < deg i)) = 1 := hc
      rw [hz i] at this
      by_contra hn
      rw [decide_eq_false hn] at this
      exact absurd this (by decide)
    rw [hd] at hpos ⊢
    obtain ⟨q, _, hq⟩ := rsqrt_pos_real (EReal.coe_pos.mp hpos)
    exact ⟨q, hq⟩
  next => exact he i

/-- The same, and nonnegative: where `e` is zero everywhere the result is a nonnegative real at every entry. -/
theorem where_rsqrt_nonneg {φ : FTy} {deg z e : FVec Ideal s φ} (hdeg : AllReal deg) (hz : ∀ i, z i = 0)
    (he : ∀ i, e i = 0) : ∀ i, ∃ r : ℝ, 0 ≤ r ∧ select (cmpf .ogt deg z) (Host.rsqrt deg) e i = (r : EReal) := by
  intro i
  obtain ⟨d, hd⟩ := hdeg i
  show ∃ r : ℝ, 0 ≤ r ∧ (if Ideal.cmp .ogt (deg i) (z i) = 1 then Ideal.rsqrt (deg i) else e i) = (r : EReal)
  split
  next hc =>
    have hpos : (0 : EReal) < deg i := by
      have : BitVec.ofBool (decide (z i < deg i)) = 1 := hc
      rw [hz i] at this
      by_contra hn
      rw [decide_eq_false hn] at this
      exact absurd this (by decide)
    rw [hd] at hpos ⊢
    obtain ⟨q, hq0, hq⟩ := rsqrt_pos_real (EReal.coe_pos.mp hpos)
    exact ⟨q, hq0.le, hq⟩
  next => exact ⟨0, le_refl 0, by rw [he i, EReal.coe_zero]⟩

end Cert.Fin
-- ==== Proof.LibFiniteC.lean ====
/-
  Extended reals that are real numbers: gathers, scatter-adds, matrix products and column sums keep them real.

  A gather only moves entries around. A scatter-add leaves, at each entry, the initial entry plus a finite sum
  of update entries; a matrix product a finite sum of products; a sum over an axis the initial value plus a
  finite sum of entries. Finite sums and products of reals are real. None of this depends on the dimension
  numbers, so each lemma is stated for every record of them.
-/
import proofs.«128478_j30691836297929_1_alg».proof.Proof.LibFinite
import Idealize.ShloMosaic.Lib.ValueIdx

noncomputable section

open scoped BigOperators

namespace Cert.Fin

open Idealize.ShloMosaic Idealize.ShloMosaic.ValueIdx

/-! ## Gather -/

/-- Every entry of a gather is an entry of its operand, whatever the dimension numbers and the indices. -/
theorem allReal_gather {s si t : Shape} {w : Nat} (d : GatherDims s si t) {x : s.Idx → EReal} (hx : AllReal x)
    (idx : IVec si w) : AllReal (Host.gather d x idx) :=
  fun _ => hx _

/-- A gather of a vector whose entries all satisfy `P` has entries that all satisfy `P`. -/
theorem gather_forall {α : Type} {s si t : Shape} {w : Nat} (d : GatherDims s si t) {x : s.Idx → α} {P : α → Prop}
    (hx : ∀ i, P (x i)) (idx : IVec si w) : ∀ j, P (Host.gather d x idx j) :=
  fun _ => hx _

/-! ## Scatter-add -/

/-- A scatter-add of real updates into a real operand is real, whatever the dimension numbers and the indices:
    each entry is the operand's plus a finite sum of update entries. -/
theorem allReal_hostScatterAdd {s si su : Shape} {w : Nat} (d : ScatterDims s si su) {x : s.Idx → EReal}
    (hx : AllReal x) (idx : IVec si w) {upd : su.Idx → EReal} (hu : AllReal upd) :
    AllReal (Ideal.hostScatterAdd d x idx upd) :=
  fun i => add_real (hx i) (sum_real _ _ hu)

/-- The same for the host operation as the programs spell it. -/
theorem allReal_scatterAdd {φ : FTy} {s si su : Shape} {w : Nat} (d : ScatterDims s si su) {x : FVec Ideal s φ}
    (hx : AllReal x) (idx : IVec si w) {upd : FVec Ideal su φ} (hu : AllReal upd) :
    AllReal (Host.scatterAdd d x idx upd) :=
  allReal_hostScatterAdd d hx idx hu

/-- A scatter-add of nonnegative real updates into a nonnegative real operand is a nonnegative real at every
    entry (a count of rows, a degree). -/
theorem scatterAdd_nonneg {φ : FTy} {s si su : Shape} {w : Nat} (d : ScatterDims s si su) {x : FVec Ideal s φ}
    (hx : ∀ i, ∃ r : ℝ, 0 ≤ r ∧ x i = (r : EReal)) (idx : IVec si w) {upd : FVec Ideal su φ}
    (hu : ∀ j, ∃ r : ℝ, 0 ≤ r ∧ upd j = (r : EReal)) :
    ∀ i, ∃ r : ℝ, 0 ≤ r ∧ Host.scatterAdd d x idx upd i = (r : EReal) := by
  intro i
  obtain ⟨a, ha, hxa⟩ := hx i
  choose g hg0 hg using hu
  refine ⟨a + ∑ j ∈ Finset.univ.filter (fun j => d.resultIdx? j idx = some i), g j,
    add_nonneg ha (Finset.sum_nonneg fun j _ => hg0 j), ?_⟩
  show x i + ∑ j ∈ Finset.univ.filter (fun j => d.resultIdx? j idx = some i), upd j = _
  rw [hxa, EReal.coe_add, coe_sum]
  exact congrArg _ (Finset.sum_congr rfl fun j _ => hg j)

/-! ## Matrix product -/

/-- A host matrix product of real operands is real, whatever the dimension numbers, the precision and the
    schedule key: each entry is a finite sum of products. -/
theorem allReal_dotGeneral {sl sr so : Shape} {φ₁ φ₂ : FTy} (d : DotDims sl sr so) (prec : Option ContractPrecision)
    (sched : HostSchedule) {lhs : FVec Ideal sl φ₁} (hl : AllReal lhs) {rhs : FVec Ideal sr φ₂} (hr : AllReal rhs) :
    AllReal (FloatOps.dotGeneral d prec sched lhs rhs) := by
  intro j
  rw [Ideal.dotGeneral_apply]
  exact sum_real _ _ (fun k => mul_real (hl _) (hr _))

/-- The same for the host operation as the programs spell it. -/
theorem allReal_hostDotGeneral {sl sr so : Shape} {φ₁ φ₂ : FTy} (d : DotDims sl sr so)
    (prec : Option ContractPrecision) {lhs : FVec Ideal sl φ₁} (hl : AllReal lhs) {rhs : FVec Ideal sr φ₂}
    (hr : AllReal rhs) : AllReal (Host.dotGeneral d prec lhs rhs) :=
  allReal_dotGeneral d prec .single hl hr

/-- A kernel matrix product of real operands into a real accumulator is real. -/
theorem allReal_matmul {sl sr so : Shape} {φ₁ φ₂ : FTy} (d : DotDims sl sr so) (prec : Option ContractPrecision)
    {lhs : FVec Ideal sl φ₁} (hl : AllReal lhs) {rhs : FVec Ideal sr φ₂} (hr : AllReal rhs)
    {acc : FVec Ideal so .f32} (ha : AllReal acc) : AllReal (FloatOps.matmul d prec lhs rhs acc) := by
  intro j
  rw [Ideal.matmul_apply]
  exact add_real (ha j) (sum_real _ _ (fun k => mul_real (hl _) (hr _)))

/-- The textbook product `(r, c) ↦ ∑ k, a (r, k) · w (k, c)` of two real matrices is real. -/
theorem allReal_mmSpec {M K N : Nat} {a : (⟨2, ![M, K]⟩ : Shape).Idx → EReal} (ha : AllReal a)
    {w : (⟨2, ![K, N]⟩ : Shape).Idx → EReal} (hw : AllReal w) :
    AllReal (fun i : (⟨2, ![M, N]⟩ : Shape).Idx => ∑ k : Fin K, a (ix2 (i 0) k) * w (ix2 k (i 1))) :=
  fun _ => sum_real _ _ (fun _ => mul_real (ha _) (hw _))

/-! ## Sum over an axis -/

/-- A host sum of a real vector over some axes from a real initial value is real. -/
theorem allReal_hostReduceAdd {s t : Shape} {axes : List (Fin s.rank)} (h : s.ReducesTo axes t) {x : s.Idx → EReal}
    (hx : AllReal x) {init : EReal} (hi : ∃ r : ℝ, init = (r : EReal)) : AllReal (Ideal.hostReduceAdd h x init) :=
  fun _ => add_real hi (sum_real _ _ hx)

/-- The same for the host operation as the programs spell it: the initial value is a rank-zero vector. -/
theorem allReal_reduceAdd {φ : FTy} {s t u : Shape} {axes : List (Fin s.rank)} {x : FVec Ideal s φ} (hx : AllReal x)
    {init : u.Idx → Ideal φ} (hi : AllReal init) (h : s.ReducesTo axes t) (hu : 0 < u.numel) :
    AllReal (Host.reduceAdd x init h hu) :=
  allReal_hostReduceAdd h hx (hi _)

/-- A kernel sum of a real vector over some axes is real. -/
theorem allReal_idealReduceAdd {s t : Shape} {axes : List (Fin s.rank)} (h : s.Reduces axes t) {x : s.Idx → EReal}
    (hx : AllReal x) : AllReal (Ideal.reduceAdd h x) :=
  fun _ => sum_real _ _ hx

end Cert.Fin
-- ==== Proof.LibGcnHost.lean ====
/-
  The host operations of one graph-convolution layer, as the two programs spell them, read as the whole-matrix
  functions of the specification, over the extended reals and for any extents.

  * The aggregation chain — scale the rows by the source factors, gather the rows the edges read, scatter-add them
    into zeros at the destinations, scale the rows by the destination factors — is `agg`.
  * The maximum with the broadcast zero scalar is `relu`; a vector broadcast to one row, then down the rows, and
    added, is `addVec`; a vector viewed as one row and added to every row is `addVec` too.
  * The degree factors — the reciprocal square root of the maximum of a count of edges and one — are real.
-/
import proofs.«128478_j30691836297929_1_alg».proof.Proof.LibGcnSpec
import proofs.«128478_j30691836297929_1_alg».proof.Proof.LibGatherScatter
import proofs.«128478_j30691836297929_1_alg».proof.Proof.LibFiniteB
import proofs.«128478_j30691836297929_1_alg».proof.Proof.LibFiniteC
import Idealize.ShloMosaic.Lib.ValueLayout

noncomputable section

open scoped BigOperators

namespace Cert.Gcn

open Idealize.ShloMosaic Idealize.ShloMosaic.ValueIdx Cert.WholeMat Cert.Fin Cert.GatherScatter

variable {N W E : Nat}

/-- The host's rectification: the maximum with the broadcast zero scalar. -/
theorem hostRelu_eq (hz : (⟨0, ![]⟩ : Shape).BroadcastsInDim ⟨2, ![N, W]⟩ ![]) (X : Mat N W) :
    maximumf X (broadcastInDim ⟨2, ![N, W]⟩ ![] hz (constant (F := Ideal) ⟨0, ![]⟩ .f32 0x00000000#32)) = relu X := by
  rw [hostSplat_zero]
  rfl

/-- The host's bias: the vector broadcast to one row, then down the rows, added. -/
theorem hostAddVec_eq (X : Mat N W) (b : RVec W)
    (hb1 : (⟨1, ![W]⟩ : Shape).BroadcastsInDim ⟨2, ![1, W]⟩ ![1]) (hb2 : (⟨2, ![1, W]⟩ : Shape).BroadcastsInDim ⟨2, ![N, W]⟩ ![0, 1]) :
    addf X (broadcastInDim ⟨2, ![N, W]⟩ ![0, 1] hb2 (broadcastInDim ⟨2, ![1, W]⟩ ![1] hb1 b)) = addVec X b := by
  rw [hostVec_rowb b ![1] rfl hb1 ![0, 1] rfl hb2]
  rfl

/-- A vector viewed as one row and added to every row is the vector added to every row. -/
theorem addRow_shapeCast (X : Mat N W) (b : RVec W) (hc : (⟨1, ![W]⟩ : Shape).ShapeCasts ⟨2, ![1, W]⟩) :
    addRow X (shapeCast ⟨2, ![1, W]⟩ b hc) = addVec X b := by
  funext i
  obtain ⟨n, j, rfl⟩ : ∃ (n : Fin N) (j : Fin W), i = ix2 n j := ⟨i 0, i 1, eq_ix2 i⟩
  rw [addRow_apply, addVec_apply, shapeCast_a_1a_apply]

/-- The degree factors are real: the reciprocal square root of the maximum of (a scatter-add of ones into zeros) and one. -/
theorem allReal_degNorm (sd : ScatterDims ⟨1, ![N]⟩ ⟨2, ![E, 1]⟩ ⟨1, ![E]⟩)
    (hz : (⟨0, ![]⟩ : Shape).BroadcastsInDim ⟨1, ![N]⟩ ![]) (ho : (⟨0, ![]⟩ : Shape).BroadcastsInDim ⟨1, ![E]⟩ ![])
    (ho' : (⟨0, ![]⟩ : Shape).BroadcastsInDim ⟨1, ![N]⟩ ![]) (idx : Col E) :
    AllReal (Host.rsqrt (maximumf (Host.scatterAdd sd (broadcastInDim ⟨1, ![N]⟩ ![] hz (constant (F := Ideal) ⟨0, ![]⟩ .f32 0x00000000#32)) idx
        (broadcastInDim ⟨1, ![E]⟩ ![] ho (constant (F := Ideal) ⟨0, ![]⟩ .f32 0x3F800000#32)))
      (broadcastInDim ⟨1, ![N]⟩ ![] ho' (constant (F := Ideal) ⟨0, ![]⟩ .f32 0x3F800000#32)))) := by
  refine allReal_hostRsqrt fun i => ?_
  obtain ⟨r, hr, h⟩ := maximumf_one_ge_one
    (allReal_scatterAdd sd (allReal_broadcastInDim _ _ hz (allReal_constant_zero _)) idx
      (allReal_broadcastInDim _ _ ho (allReal_constant_one _)))
    (y := broadcastInDim ⟨1, ![N]⟩ ![] ho' (constant (F := Ideal) ⟨0, ![]⟩ .f32 0x3F800000#32))
    (fun _ => one_word) i
  exact ⟨r, by linarith, h⟩

/-- A vector broadcast to one column, then along the columns, reads the vector at the row. -/
theorem hostVec_colb_apply (v : RVec N) (h1 : (⟨1, ![N]⟩ : Shape).BroadcastsInDim ⟨2, ![N, 1]⟩ ![0])
    (h2 : (⟨2, ![N, 1]⟩ : Shape).BroadcastsInDim ⟨2, ![N, W]⟩ ![0, 1]) (n : Fin N) (j : Fin W) :
    broadcastInDim ⟨2, ![N, W]⟩ ![0, 1] h2 (broadcastInDim ⟨2, ![N, 1]⟩ ![0] h1 v) (ix2 n j) = v (ix1 n) := by
  rw [broadcastInDim_apply _ h2 _ (ix2 n j) (ix2 n (0 : Fin 1)) (fun a => by
    match a with
    | ⟨0, _⟩ =>
      show n.val = if N = 1 then 0 else n.val
      split
      · have := n.isLt; omega
      · rfl
    | ⟨1, _⟩ => rfl)]
  rw [broadcastInDim_apply _ h1 _ (ix2 n (0 : Fin 1)) (ix1 n) (fun a => by
    match a with
    | ⟨0, _⟩ =>
      show n.val = if N = 1 then 0 else n.val
      split
      · have := n.isLt; omega
      · rfl)]

/-- The printed aggregation chain IS agg: scale the rows by the source factors, gather the rows the edges read, scatter-add them
    into zeros at the destinations, scale the rows by the destination factors. -/
theorem hostAgg_eq (hN : 0 < N)
    (gd : GatherDims ⟨2, ![N, W]⟩ ⟨2, ![E, 1]⟩ ⟨2, ![E, W]⟩)
    (wfg : GatherDims.WF ⟨2, ![N, W]⟩ ⟨2, ![E, 1]⟩ ⟨2, ![E, W]⟩ [1] [0] [] [0] [] 1 ![1, W]) (hgd : gd = rowGatherDims N W E wfg)
    (sd : ScatterDims ⟨2, ![N, W]⟩ ⟨2, ![E, 1]⟩ ⟨2, ![E, W]⟩)
    (wfs : ScatterDims.WF ⟨2, ![N, W]⟩ ⟨2, ![E, 1]⟩ ⟨2, ![E, W]⟩ [1] [0] [0] 1) (hsd : sd = rowScatterDims N W E wfs)
    (hz : (⟨0, ![]⟩ : Shape).BroadcastsInDim ⟨2, ![N, W]⟩ ![])
    (hc1 hc1' : (⟨1, ![N]⟩ : Shape).BroadcastsInDim ⟨2, ![N, 1]⟩ ![0])
    (hc2 hc2' : (⟨2, ![N, 1]⟩ : Shape).BroadcastsInDim ⟨2, ![N, W]⟩ ![0, 1])
    (ns nd : RVec N) (srcc dstc : Col E) (X : Mat N W) :
    mulf (Host.scatterAdd sd (broadcastInDim ⟨2, ![N, W]⟩ ![] hz (constant (F := Ideal) ⟨0, ![]⟩ .f32 0x00000000#32)) dstc
            (Host.gather gd (mulf X (broadcastInDim ⟨2, ![N, W]⟩ ![0, 1] hc2 (broadcastInDim ⟨2, ![N, 1]⟩ ![0] hc1 ns))) srcc))
         (broadcastInDim ⟨2, ![N, W]⟩ ![0, 1] hc2' (broadcastInDim ⟨2, ![N, 1]⟩ ![0] hc1' nd))
      = agg hN ns nd srcc dstc X := by
  subst hgd hsd
  funext i
  obtain ⟨n, j, rfl⟩ : ∃ (n : Fin N) (j : Fin W), i = ix2 n j := ⟨i 0, i 1, eq_ix2 i⟩
  rw [agg_apply, hostSplat_zero]
  show Ideal.hostScatterAdd (rowScatterDims N W E wfs) (Z N W) dstc
        (Host.gather (rowGatherDims N W E wfg)
          (mulf X (broadcastInDim ⟨2, ![N, W]⟩ ![0, 1] hc2 (broadcastInDim ⟨2, ![N, 1]⟩ ![0] hc1 ns))) srcc) (ix2 n j)
      * broadcastInDim ⟨2, ![N, W]⟩ ![0, 1] hc2' (broadcastInDim ⟨2, ![N, 1]⟩ ![0] hc1' nd) (ix2 n j) = _
  rw [rowScatterAdd_apply, hostVec_colb_apply]
  refine congrArg (fun s => ((0 : EReal) + s) * nd (ix1 n)) (Finset.sum_congr rfl fun e _ => ?_)
  rw [rowGather_apply hN]
  show X (ix2 (srcRow hN srcc e) j)
      * broadcastInDim ⟨2, ![N, W]⟩ ![0, 1] hc2 (broadcastInDim ⟨2, ![N, 1]⟩ ![0] hc1 ns) (ix2 (srcRow hN srcc e) j) = _
  rw [hostVec_colb_apply]

end Cert.Gcn

end
-- ==== Proof.LibGcnLaw.lean ====
/-
  The aggregation law of a graph-convolution layer, and realness of a layer's operations.

  Over the extended reals the product does not distribute over sums at the infinities, so the law
  agg (X · W) = (agg X) · W is stated for matrices and scale vectors all of whose entries are real numbers. Then every
  sum and product in sight is the extended real of the same expression over the reals, where the law is the exchange of
  two finite sums and the distributive law. Each operation of a layer (aggregation, product, adding a vector to every
  row, rectification) keeps all entries real.
-/
import proofs.«128478_j30691836297929_1_alg».proof.Proof.LibGcnSpec
import proofs.«128478_j30691836297929_1_alg».proof.Proof.LibFiniteB
import proofs.«128478_j30691836297929_1_alg».proof.Proof.LibFiniteC

noncomputable section

open scoped BigOperators

namespace Cert.Gcn

open Idealize.ShloMosaic Idealize.ShloMosaic.ValueIdx Cert.WholeMat Cert.Fin

variable {N W K E : Nat}

/-- The law over the reals: a weighted sum over edges of inner products, scaled, is the inner product of the scaled
    weighted sums. Both sides are the double sum of x e k · w k · s e · d. -/
theorem agg_mm_real {ι κ : Type*} [Fintype κ] (S : Finset ι) (x : ι → κ → ℝ) (w : κ → ℝ) (s : ι → ℝ) (d : ℝ) :
    (∑ e ∈ S, (∑ k, x e k * w k) * s e) * d = ∑ k, ((∑ e ∈ S, x e k * s e) * d) * w k := by
  simp only [Finset.sum_mul]
  rw [Finset.sum_comm]
  refine Finset.sum_congr rfl fun k _ => Finset.sum_congr rfl fun e _ => ?_
  ring

/-- The aggregation commutes with a matrix product on the right, when every entry is a real number. -/
theorem agg_mm (hN : 0 < N) {ns nd : RVec N} (hns : AllReal ns) (hnd : AllReal nd) (srcc dstc : Col E)
    {X : Mat N K} (hX : AllReal X) {Wt : Mat K W} (hW : AllReal Wt) :
    agg hN ns nd srcc dstc (mm X Wt) = mm (agg hN ns nd srcc dstc X) Wt := by
  obtain ⟨fs, rfl⟩ := hns.exists_fun
  obtain ⟨fd, rfl⟩ := hnd.exists_fun
  obtain ⟨fx, rfl⟩ := hX.exists_fun
  obtain ⟨fw, rfl⟩ := hW.exists_fun
  funext i
  obtain ⟨n, c, rfl⟩ : ∃ (n : Fin N) (c : Fin W), i = ix2 n c := ⟨i 0, i 1, eq_ix2 i⟩
  simp only [agg_apply, mm_apply, zero_add, ← EReal.coe_mul, ← coe_sum]
  rw [agg_mm_real]

/-- The aggregation of a real matrix with real scale factors is real. -/
theorem allReal_agg (hN : 0 < N) {ns nd : RVec N} (hns : AllReal ns) (hnd : AllReal nd) (srcc dstc : Col E)
    {X : Mat N W} (hX : AllReal X) : AllReal (agg hN ns nd srcc dstc X) := fun _ =>
  mul_real (add_real ⟨0, EReal.coe_zero.symm⟩ (sum_real _ _ fun _ => mul_real (hX _) (hns _))) (hnd _)

/-- The product of two real matrices is real. -/
theorem allReal_mm {X : Mat N K} (hX : AllReal X) {Wt : Mat K W} (hW : AllReal Wt) : AllReal (mm X Wt) := fun _ =>
  sum_real _ _ fun _ => mul_real (hX _) (hW _)

/-- A real vector added to every row of a real matrix is real. -/
theorem allReal_addVec {X : Mat N W} (hX : AllReal X) {b : RVec W} (hb : AllReal b) : AllReal (addVec X b) := fun _ =>
  add_real (hX _) (hb _)

/-- The rectification of a real matrix is real. -/
theorem allReal_relu {X : Mat N W} (hX : AllReal X) : AllReal (relu X) := fun _ =>
  max_real (hX _) ⟨0, EReal.coe_zero.symm⟩

end Cert.Gcn

end
-- ==== Proof.LibGcnNet.lean ====
/-
  One graph-convolution layer in its two orders, and the three-layer network in its two orders.

  A layer may aggregate first and then multiply by its weights, or multiply first and then aggregate; the bias is added
  to every row last. For real entries the two orders give the same matrix, by the aggregation law. A layer of real
  inputs is real, and so is its rectification, so the law applies again at the next layer: the three-layer networks in
  the two orders are equal.
-/
import proofs.«128478_j30691836297929_1_alg».proof.Proof.LibGcnLaw

noncomputable section

open scoped BigOperators

namespace Cert.Gcn

open Idealize.ShloMosaic Idealize.ShloMosaic.ValueIdx Cert.WholeMat Cert.Fin

variable {N E K W K0 K1 K2 K3 : Nat}

/-- One layer, aggregating first: (agg X) · Wt, then the bias on every row. -/
def layerR (hN : 0 < N) (ns nd : RVec N) (srcc dstc : Col E) (X : Mat N K) (Wt : Mat K W) (b : RVec W) : Mat N W :=
  addVec (mm (agg hN ns nd srcc dstc X) Wt) b

/-- One layer, multiplying first: agg (X · Wt), then the bias on every row. -/
def layerK (hN : 0 < N) (ns nd : RVec N) (srcc dstc : Col E) (X : Mat N K) (Wt : Mat K W) (b : RVec W) : Mat N W :=
  addVec (agg hN ns nd srcc dstc (mm X Wt)) b

/-- For real entries the two orders of a layer agree. -/
theorem layerK_eq_layerR (hN : 0 < N) {ns nd : RVec N} (hns : AllReal ns) (hnd : AllReal nd) (srcc dstc : Col E)
    {X : Mat N K} (hX : AllReal X) {Wt : Mat K W} (hW : AllReal Wt) (b : RVec W) :
    layerK hN ns nd srcc dstc X Wt b = layerR hN ns nd srcc dstc X Wt b :=
  congrArg (fun Y => addVec Y b) (agg_mm hN hns hnd srcc dstc hX hW)

/-- A layer of real inputs is real. -/
theorem allReal_layerR (hN : 0 < N) {ns nd : RVec N} (hns : AllReal ns) (hnd : AllReal nd) (srcc dstc : Col E)
    {X : Mat N K} (hX : AllReal X) {Wt : Mat K W} (hW : AllReal Wt) {b : RVec W} (hb : AllReal b) :
    AllReal (layerR hN ns nd srcc dstc X Wt b) :=
  allReal_addVec (allReal_mm (allReal_agg hN hns hnd srcc dstc hX) hW) hb

/-- Three layers, rectified after the first two, aggregating first in each. -/
def netR (hN : 0 < N) (ns nd : RVec N) (srcc dstc : Col E) (x : Mat N K0) (W0 : Mat K0 K1) (b0 : RVec K1)
    (W1 : Mat K1 K2) (b1 : RVec K2) (W2 : Mat K2 K3) (b2 : RVec K3) : Mat N K3 :=
  layerR hN ns nd srcc dstc (relu (layerR hN ns nd srcc dstc (relu (layerR hN ns nd srcc dstc x W0 b0)) W1 b1)) W2 b2

/-- The same, multiplying first in each. -/
def netK (hN : 0 < N) (ns nd : RVec N) (srcc dstc : Col E) (x : Mat N K0) (W0 : Mat K0 K1) (b0 : RVec K1)
    (W1 : Mat K1 K2) (b1 : RVec K2) (W2 : Mat K2 K3) (b2 : RVec K3) : Mat N K3 :=
  layerK hN ns nd srcc dstc (relu (layerK hN ns nd srcc dstc (relu (layerK hN ns nd srcc dstc x W0 b0)) W1 b1)) W2 b2

/-- For real entries the three-layer networks in the two orders agree. -/
theorem netK_eq_netR (hN : 0 < N) {ns nd : RVec N} (hns : AllReal ns) (hnd : AllReal nd) (srcc dstc : Col E)
    {x : Mat N K0} (hx : AllReal x) {W0 : Mat K0 K1} (hW0 : AllReal W0) {b0 : RVec K1} (hb0 : AllReal b0)
    {W1 : Mat K1 K2} (hW1 : AllReal W1) {b1 : RVec K2} (hb1 : AllReal b1) {W2 : Mat K2 K3} (hW2 : AllReal W2) (b2 : RVec K3) :
    netK hN ns nd srcc dstc x W0 b0 W1 b1 W2 b2 = netR hN ns nd srcc dstc x W0 b0 W1 b1 W2 b2 := by
  have h0 : AllReal (relu (layerR hN ns nd srcc dstc x W0 b0)) :=
    allReal_relu (allReal_layerR hN hns hnd srcc dstc hx hW0 hb0)
  have h1 : AllReal (relu (layerR hN ns nd srcc dstc (relu (layerR hN ns nd srcc dstc x W0 b0)) W1 b1)) :=
    allReal_relu (allReal_layerR hN hns hnd srcc dstc h0 hW1 hb1)
  unfold netK netR
  rw [layerK_eq_layerR hN hns hnd srcc dstc hx hW0 b0, layerK_eq_layerR hN hns hnd srcc dstc h0 hW1 b1,
    layerK_eq_layerR hN hns hnd srcc dstc h1 hW2 b2]

end Cert.Gcn

end
-- ==== Proof.RegionMatmul.lean ====
import proofs.«128478_j30691836297929_1_alg».proof.Proof.Gen.KernelIdeal.Frame
import proofs.«128478_j30691836297929_1_alg».proof.Proof.LibGcnSpec
import Idealize.ShloMosaic.Lib.Pipeline.Value

/-
  The three matrix-product regions of the idealized kernel, each read as one whole-array function of the arrays
  found at region entry.

  Each region runs over a grid of 10 points. At point t its left window holds rows 5000·t … 5000·t + 4999 of the
  left array, its right window holds the whole right array, and its body stores the matrix product of the two blocks
  (both narrowed to bf16 first, which changes nothing on extended reals) into rows 5000·t … 5000·t + 4999 of the
  output array. Entry (r, c) of a matrix product reads only row r of the left factor and column c of the right one,
  so the product of a row block is the row block of the product; the ten row blocks cover the 50000 rows (row r is
  in block r / 5000), so the output array ends holding the product of the two whole arrays.
-/

noncomputable section

namespace Cert.KernelIdeal.RegionValue

open Idealize.ShloMosaic Idealize.ShloMosaic.TcCoe Idealize.ShloMosaic.ValueIdx Idealize.SL.Sem Cert.KernelIdeal Cert.KernelIdeal.Gen Cert.WholeMat

variable (V : (c : Dev nD) → (b : Ref sig .tc) → Buf (Elt Ideal) ((c : Thread nD τ).loc b))

/-- The zero offsets of a whole-buffer rectangle. -/
theorem zero_off : (![0, 0] : Fin 2 → Nat) = fun _ => 0 := funext fun a => by fin_cases a <;> rfl

/-- The product of a row block is the row block of the product: if x is rows o·B … of A (h0) and y is W, then
    entry j of x · y is entry i of A · W, where i is j moved down by o·B rows. -/
theorem mm_rowBlock {M B K N : Nat} (A : Mat M K) (W : Mat K N) (x : Mat B K) (y : Mat K N) (o : Nat)
    (hx : ∀ (p : Fin B) (k : Fin K) (r : Fin M), r.val = o * B + p.val → x (ix2 p k) = A (ix2 r k))
    (hy : ∀ (k : Fin K) (q : Fin N), y (ix2 k q) = W (ix2 k q))
    (j : (⟨2, ![B, N]⟩ : Shape).Idx) (i : (⟨2, ![M, N]⟩ : Shape).Idx)
    (hi0 : (i 0).val = o * B + (j 0).val) (hi1 : (i 1).val = (j 1).val) :
    mm x y j = mm A W i := by
  obtain ⟨p, q, rfl⟩ : ∃ (p : Fin B) (q : Fin N), j = ix2 p q := ⟨j 0, j 1, eq_ix2 j⟩
  obtain ⟨r, s, rfl⟩ : ∃ (r : Fin M) (s : Fin N), i = ix2 r s := ⟨i 0, i 1, eq_ix2 i⟩
  obtain rfl : s = q := Fin.ext hi1
  rw [mm_apply, mm_apply]
  exact Finset.sum_congr rfl fun k _ => by rw [hx p k r hi0, hy k s]

/-! ## Region 0: [50000, 100] · [100, 64] -/

/-- The body's arithmetic is the matrix product of its two loaded blocks. -/
theorem pay0 (x0 : Vec Ideal S5000x100 .f32) (x1 : Vec Ideal S100x64 .f32) : k0_pay1 x0 x1 = mm x0 x1 :=
  matmul_eq_mm dot_S5000x100_S100x64_S5000x64_1_0_0_1_n_n rfl none x0 x1 _ _

/-- The printed index maps over the grid: the left and output windows are at block (t, 0), the right one at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 5000·t … of the left array. -/
theorem lblk0 (c : Dev nD) (t : Fin cfg0.N) (y : S5000x100.Idx) (i : S50000x100.Idx)
    (h0 : (i 0).val = t.val * 5000 + (y 0).val) (h1 : (i 1).val = (y 1).val) :
    (iblk0 V c 0 t : Vec Ideal S5000x100 .f32) y = (V c main_arg0 : S50000x100.Idx → EReal) i := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; omega
  | ⟨1, _⟩ => show win0_0.index t (1 : Fin 2) * 100 + 1 * (y 1).val = (i 1).val; omega

/-- The right window's block at every point is the whole right array. -/
theorem rblk0 (c : Dev nD) (t : Fin cfg0.N) (y : S100x64.Idx) :
    (iblk0 V c 1 t : Vec Ideal S100x64 .f32) y = (V c main_arg1 : S100x64.Idx → EReal) y := by
  obtain ⟨-, -, e2, e3, -, -⟩ := idx0 t
  unfold iblk0
  rw [View.read_apply]
  show V c main_arg1 _ = V c main_arg1 _
  congr 1
  funext a
  apply Fin.ext
  match a with
  | ⟨0, _⟩ => show win0_1.index t (0 : Fin 2) * 100 + 1 * (y 0).val = (y 0).val; omega
  | ⟨1, _⟩ => show win0_1.index t (1 : Fin 2) * 64 + 1 * (y 1).val = (y 1).val; omega

/-- What point t writes back is block t of the product of the two whole arrays. -/
theorem flushed0 (c : Dev nD) (t : Fin cfg0.N) :
    (dat0 (F := Ideal) V c).flushed 2 t
      = ((cfg0.win 2).blk t).view.read (Elt Ideal) (mm (V c main_arg0 : Mat 50000 100) (V c main_arg1 : Mat 100 64)) := by
  show (cfg0.win 2).cut (grid0.coords t) ((dat0 (F := Ideal) V c).after 2 t) = _
  rw [after0_2]
  unfold out0_2
  rw [View.canon_unit_zero zero_off]
  simp only [View.ld_unit_zero (S := S5000x100) zero_off, View.ld_unit_zero (S := S100x64) zero_off]
  rw [pay0]
  obtain ⟨-, -, -, -, e4, e5⟩ := idx0 t
  funext j
  rw [View.read_apply]
  refine mm_rowBlock (M := 50000) (B := 5000) (K := 100) (N := 64) _ _ _ _ t.val
    (fun p k r hr => lblk0 V c t _ _ hr rfl) (fun k q => rblk0 V c t _) j _ ?_ ?_
  · show win0_2.index t (0 : Fin 2) * 5000 + 1 * (j 0).val = t.val * 5000 + (j 0).val; omega
  · show win0_2.index t (1 : Fin 2) * 64 + 1 * (j 1).val = (j 1).val; omega

/-- An index of the output array is in point t's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v13).slice (win0_2.rect t)).set ↔ _
  rw [View.set_slice_whole, Rect.mem_set_unit]
  exact Iff.rfl

/-- Row r of the output array is in the block of point r / 5000. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, e4, e5⟩ := idx0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- Region 0 leaves the product of its two argument arrays in its output array. -/
theorem region0_value (c : Dev nD) : (dat0 (F := Ideal) V c).arrAt 2 cfg0.N = mm (V c main_arg0) (V c main_arg1) :=
  (dat0 (F := Ideal) V c).arrAt_eq_of_cover 2 (mm (V c main_arg0 : Mat 50000 100) (V c main_arg1 : Mat 100 64))
    (fun t _ => flushed0 V c t) cover0

/-! ## Region 2: [50000, 64] · [64, 64] -/

/-- The body's arithmetic is the matrix product of its two loaded blocks (the cast of the left block to its own shape
    is the identity). -/
theorem pay2 (x0 : Vec Ideal S5000x64 .f32) (x1 : Vec Ideal S64x64 .f32) : k2_pay1 x0 x1 = mm x0 x1 := by
  unfold k2_pay1
  simp only [shapeCast_self]
  exact matmul_eq_mm dot_S5000x64_S64x64_S5000x64_1_0_0_1_n_n rfl none x0 x1 _ _

/-- The printed index maps over the grid: the left and output windows are at block (t, 0), the right one at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t is rows 5000·t … of the left array. -/
theorem lblk2 (c : Dev nD) (t : Fin cfg2.N) (y : S5000x64.Idx) (i : S50000x64.Idx)
    (h0 : (i 0).val = t.val * 5000 + (y 0).val) (h1 : (i 1).val = (y 1).val) :
    (iblk2 V c 0 t : Vec Ideal S5000x64 .f32) y = (V c main_v31 : S50000x64.Idx → EReal) i := by
  obtain ⟨e0, e1, -, -, -, -⟩ := idx2 t
  unfold iblk2
  rw [View.read_apply]
  show V c main_v31 _ = V c main_v31 _
  congr 1
  funext a
  apply Fin.ext
  match a with
  | ⟨0, _⟩ => show win2_0.index t (0 : Fin 2) * 5000 + 1 * (y 0).val = (i 0).val; omega
  | ⟨1, _⟩ => show win2_0.index t (1 : Fin 2) * 64 + 1 * (y 1).val = (i 1).val; omega

/-- The right window's block at every point is the whole right array. -/
theorem rblk2 (c : Dev nD) (t : Fin cfg2.N) (y : S64x64.Idx) :
    (iblk2 V c 1 t : Vec Ideal S64x64 .f32) y = (V c main_arg3 : S64x64.Idx → EReal) y := by
  obtain ⟨-, -, e2, e3, -, -⟩ := idx2 t
  unfold iblk2
  rw [View.read_apply]
  show V c main_arg3 _ = V c main_arg3 _
  congr 1
  funext a
  apply Fin.ext
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- What point t writes back is block t of the product of the two whole arrays. -/
theorem flushed2 (c : Dev nD) (t : Fin cfg2.N) :
    (dat2 (F := Ideal) V c).flushed 2 t
      = ((cfg2.win 2).blk t).view.read (Elt Ideal) (mm (V c main_v31 : Mat 50000 64) (V c main_arg3 : Mat 64 64)) := by
  show (cfg2.win 2).cut (grid2.coords t) ((dat2 (F := Ideal) V c).after 2 t) = _
  rw [after2_2]
  unfold out2_2
  rw [View.canon_unit_zero zero_off]
  simp only [View.ld_unit_zero (S := S5000x64) zero_off, View.ld_unit_zero (S := S64x64) zero_off]
  rw [pay2]
  obtain ⟨-, -, -, -, e4, e5⟩ := idx2 t
  funext j
  rw [View.read_apply]
  refine mm_rowBlock (M := 50000) (B := 5000) (K := 64) (N := 64) _ _ _ _ t.val
    (fun p k r hr => lblk2 V c t _ _ hr rfl) (fun k q => rblk2 V c t _) j _ ?_ ?_
  · show win2_2.index t (0 : Fin 2) * 5000 + 1 * (j 0).val = t.val * 5000 + (j 0).val; omega
  · show win2_2.index t (1 : Fin 2) * 64 + 1 * (j 1).val = (j 1).val; omega

/-- An index of the output array is in point t's block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v32).slice (win2_2.rect t)).set ↔ _
  rw [View.set_slice_whole, Rect.mem_set_unit]
  exact Iff.rfl

/-- Row r of the output array is in the block of point r / 5000. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, -, e4, e5⟩ := idx2 t
  have e4' : win2_2.index t (0 : Fin 2) = (i 0).val / 5000 := e4
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- Region 2 leaves the product of its two argument arrays in its output array. -/
theorem region2_value (c : Dev nD) : (dat2 (F := Ideal) V c).arrAt 2 cfg2.N = mm (V c main_v31) (V c main_arg3) :=
  (dat2 (F := Ideal) V c).arrAt_eq_of_cover 2 (mm (V c main_v31 : Mat 50000 64) (V c main_arg3 : Mat 64 64))
    (fun t _ => flushed2 V c t) cover2

/-! ## Region 4: [50000, 64] · [64, 47] -/

/-- The body's arithmetic is the matrix product of its two loaded blocks (the cast of the left block to its own shape
    is the identity). -/
theorem pay4 (x0 : Vec Ideal S5000x64 .f32) (x1 : Vec Ideal S64x47 .f32) : k4_pay1 x0 x1 = mm x0 x1 := by
  unfold k4_pay1
  simp only [shapeCast_self]
  exact matmul_eq_mm dot_S5000x64_S64x47_S5000x47_1_0_0_1_n_n rfl none x0 x1 _ _

/-- The printed index maps over the grid: the left and output windows are at block (t, 0), the right one at (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left window's block at point t is rows 5000·t … of the left array. -/
theorem lblk4 (c : Dev nD) (t : Fin cfg4.N) (y : S5000x64.Idx) (i : S50000x64.Idx)
    (h0 : (i 0).val = t.val * 5000 + (y 0).val) (h1 : (i 1).val = (y 1).val) :
    (iblk4 V c 0 t : Vec Ideal S5000x64 .f32) y = (V c main_v50 : S50000x64.Idx → EReal) i := by
  obtain ⟨e0, e1, -, -, -, -⟩ := idx4 t
  unfold iblk4
  rw [View.read_apply]
  show V c main_v50 _ = V c main_v50 _
  congr 1
  funext a
  apply Fin.ext
  match a with
  | ⟨0, _⟩ => show win4_0.index t (0 : Fin 2) * 5000 + 1 * (y 0).val = (i 0).val; omega
  | ⟨1, _⟩ => show win4_0.index t (1 : Fin 2) * 64 + 1 * (y 1).val = (i 1).val; omega

/-- The right window's block at every point is the whole right array. -/
theorem rblk4 (c : Dev nD) (t : Fin cfg4.N) (y : S64x47.Idx) :
    (iblk4 V c 1 t : Vec Ideal S64x47 .f32) y = (V c main_arg5 : S64x47.Idx → EReal) y := by
  obtain ⟨-, -, e2, e3, -, -⟩ := idx4 t
  unfold iblk4
  rw [View.read_apply]
  show V c main_arg5 _ = V c main_arg5 _
  congr 1
  funext a
  apply Fin.ext
  match a with
  | ⟨0, _⟩ => show win4_1.index t (0 : Fin 2) * 64 + 1 * (y 0).val = (y 0).val; omega
  | ⟨1, _⟩ => show win4_1.index t (1 : Fin 2) * 47 + 1 * (y 1).val = (y 1).val; omega

/-- What point t writes back is block t of the product of the two whole arrays. -/
theorem flushed4 (c : Dev nD) (t : Fin cfg4.N) :
    (dat4 (F := Ideal) V c).flushed 2 t
      = ((cfg4.win 2).blk t).view.read (Elt Ideal) (mm (V c main_v50 : Mat 50000 64) (V c main_arg5 : Mat 64 47)) := by
  show (cfg4.win 2).cut (grid4.coords t) ((dat4 (F := Ideal) V c).after 2 t) = _
  rw [after4_2]
  unfold out4_2
  rw [View.canon_unit_zero zero_off]
  simp only [View.ld_unit_zero (S := S5000x64) zero_off, View.ld_unit_zero (S := S64x47) zero_off]
  rw [pay4]
  obtain ⟨-, -, -, -, e4, e5⟩ := idx4 t
  funext j
  rw [View.read_apply]
  refine mm_rowBlock (M := 50000) (B := 5000) (K := 64) (N := 47) _ _ _ _ t.val
    (fun p k r hr => lblk4 V c t _ _ hr rfl) (fun k q => rblk4 V c t _) j _ ?_ ?_
  · show win4_2.index t (0 : Fin 2) * 5000 + 1 * (j 0).val = t.val * 5000 + (j 0).val; omega
  · show win4_2.index t (1 : Fin 2) * 47 + 1 * (j 1).val = (j 1).val; omega

/-- An index of the output array is in point t's block iff each coordinate is in the block's range on its axis. -/
theorem mem_blk4 (t : Fin cfg4.N) (i : S50000x47.Idx) :
    i ∈ ((cfg4.win 2).blk t).view.set ↔ ∀ a : Fin 2, win4_2.index t a * S5000x47.size a ≤ (i a).val ∧ (i a).val < win4_2.index t a * S5000x47.size a + S5000x47.size a := by
  show i ∈ ((View.whole main_v51).slice (win4_2.rect t)).set ↔ _
  rw [View.set_slice_whole, Rect.mem_set_unit]
  exact Iff.rfl

/-- Row r of the output array is in the block of point r / 5000. -/
theorem cover4 (i : S50000x47.Idx) : ∃ t : Fin cfg4.N, (cfg4.win 2).flush t = true ∧ i ∈ ((cfg4.win 2).blk t).view.set := by
  have hi0 : (i 0).val < 50000 := (i 0).isLt
  have hi1 : (i 1).val < 47 := (i 1).isLt
  have hN : cfg4.N = 10 := N_4
  let t : Fin cfg4.N := ⟨(i 0).val / 5000, by rw [hN]; omega⟩
  obtain ⟨-, -, -, -, e4, e5⟩ := idx4 t
  have e4' : win4_2.index t (0 : Fin 2) = (i 0).val / 5000 := e4
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 47 ≤ (i 1).val ∧ (i 1).val < win4_2.index t (1 : Fin 2) * 47 + 47; omega

/-- Region 4 leaves the product of its two argument arrays in its output array. -/
theorem region4_value (c : Dev nD) : (dat4 (F := Ideal) V c).arrAt 2 cfg4.N = mm (V c main_v50) (V c main_arg5) :=
  (dat4 (F := Ideal) V c).arrAt_eq_of_cover 2 (mm (V c main_v50 : Mat 50000 64) (V c main_arg5 : Mat 64 47))
    (fun t _ => flushed4 V c t) cover4

end Cert.KernelIdeal.RegionValue

end
-- ==== Proof.RegionBias.lean ====
/-
  What the three bias regions leave in their output arrays, each as one function of the arrays found when the region
  is entered, over the extended reals.

  Each region runs over 10 points. At point t its body reads rows 5000 t … 5000 t + 4999 of a 50000-row matrix X and the
  whole one-row matrix b, and writes to the same rows of the output X(r, j) + b(0, j), in the first two regions
  rectified (the maximum with zero): the two reshapes in the body keep the shape, so they are identities; the
  broadcast of the one row down 5000 rows reads row 0; the splat of the all-zero word is zero; the sum and the maximum
  are those of the extended reals, entry by entry. The block a point writes is therefore the same block of the whole
  matrix relu (addRow X b) (of addRow X b in the last region), and since row r lies in the block of point r / 5000 the
  blocks fill the array, which ends holding that matrix.
-/
import proofs.«128478_j30691836297929_1_alg».proof.Proof.Gen.KernelIdeal.Frame
import proofs.«128478_j30691836297929_1_alg».proof.Proof.LibGcnSpec
import Idealize.ShloMosaic.Lib.Pipeline.Value
import Idealize.ShloMosaic.Lib.ValueLayout

noncomputable section

namespace Cert.KernelIdeal.RegionValue

open Idealize.ShloMosaic Idealize.ShloMosaic.TcCoe Idealize.ShloMosaic.ValueIdx Idealize.SL.Sem Cert.KernelIdeal Cert.KernelIdeal.Gen Cert.WholeMat Cert.Gcn

variable (V : (c : Dev nD) → (b : Ref sig .tc) → Buf (Elt Ideal) ((c : Thread nD τ).loc b))

/-- A block of rows of a matrix plus the bias row is the same block of the whole sum. -/
theorem addRow_blk {N M W : Nat} (X : Mat N W) (b : Mat 1 W) (Y : Mat M W) (k : Nat)
    (hk : ∀ j : (⟨2, ![M, W]⟩ : Shape).Idx, k * M + (j 0).val < N)
    (hY : ∀ j : (⟨2, ![M, W]⟩ : Shape).Idx, Y j = X (ix2 ⟨k * M + (j 0).val, hk j⟩ ⟨(j 1).val, idx2_lt1 j⟩))
    (j : (⟨2, ![M, W]⟩ : Shape).Idx) :
    addRow Y b j = addRow X b (ix2 ⟨k * M + (j 0).val, hk j⟩ ⟨(j 1).val, idx2_lt1 j⟩) := by
  show Y j + b _ = X _ + b _
  rw [hY]
  rfl

/-- The same under the rectification. -/
theorem relu_addRow_blk {N M W : Nat} (X : Mat N W) (b : Mat 1 W) (Y : Mat M W) (k : Nat)
    (hk : ∀ j : (⟨2, ![M, W]⟩ : Shape).Idx, k * M + (j 0).val < N)
    (hY : ∀ j : (⟨2, ![M, W]⟩ : Shape).Idx, Y j = X (ix2 ⟨k * M + (j 0).val, hk j⟩ ⟨(j 1).val, idx2_lt1 j⟩))
    (j : (⟨2, ![M, W]⟩ : Shape).Idx) :
    relu (addRow Y b) j = relu (addRow X b) (ix2 ⟨k * M + (j 0).val, hk j⟩ ⟨(j 1).val, idx2_lt1 j⟩) := by
  show max (addRow Y b j) 0 = max (addRow X b _) 0
  rw [addRow_blk X b Y k hk hY]

/-- The all-zero offsets of a whole-block access, as a function. -/
theorem hz2 : (![0, 0] : Fin 2 → Nat) = fun _ => 0 := funext fun a => by fin_cases a <;> rfl

/-! ## Region 1: a [50000, 64] matrix plus its bias row, rectified -/

theorem pay1_eq (x0 : Vec Ideal S5000x64 .f32) (x1 : Vec Ideal S1x64 .f32) :
    k1_pay1 (F := Ideal) x0 x1 = relu (addRow x0 x1) := by
  funext j
  obtain ⟨p, q, rfl⟩ : ∃ (p : Fin 5000) (q : Fin 64), j = ix2 p q := ⟨j 0, j 1, eq_ix2 j⟩
  unfold k1_pay1
  simp only [shapeCast_self]
  rw [relu_apply, addRow_apply]
  show max (x0 (ix2 p q) + broadcastTo S5000x64 x1 broadcasts_S1x64_S5000x64 (ix2 p q)) (Ideal.ofBits .f32 0x00000000#32) = _
  rw [broadcastTo_1b_ab_apply, Ideal.ofBits_zero_f32]

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt1 (t : Fin cfg1.N) : t.val < 10 := lt_of_lt_of_eq t.isLt N_1

theorem row1 (t : Fin cfg1.N) (j : S5000x64.Idx) : t.val * 5000 + (j 0).val < 50000 := by
  have := lt1 t; have := idx2_lt0 j; omega

theorem emb1_0 (t : Fin cfg1.N) (j : S5000x64.Idx) :
    ((cfg1.win 0).blk t).view.emb j = (ix2 ⟨t.val * 5000 + (j 0).val, row1 t j⟩ ⟨(j 1).val, idx2_lt1 j⟩ : S50000x64.Idx) := by
  obtain ⟨e0, e1, e2, e3, e4, e5⟩ := idx_facts1 t
  funext a; apply Fin.ext
  match a with
  | ⟨0, _⟩ => show win1_0.index t (0 : Fin 2) * 5000 + 1 * (j 0).val = t.val * 5000 + (j 0).val; omega
  | ⟨1, _⟩ => show win1_0.index t (1 : Fin 2) * 64 + 1 * (j 1).val = (j 1).val; omega

theorem emb1_2 (t : Fin cfg1.N) (j : S5000x64.Idx) :
    ((cfg1.win 2).blk t).view.emb j = (ix2 ⟨t.val * 5000 + (j 0).val, row1 t j⟩ ⟨(j 1).val, idx2_lt1 j⟩ : S50000x64.Idx) := by
  obtain ⟨e0, e1, e2, e3, e4, e5⟩ := idx_facts1 t
  funext a; apply Fin.ext
  match a with
  | ⟨0, _⟩ => show win1_2.index t (0 : Fin 2) * 5000 + 1 * (j 0).val = t.val * 5000 + (j 0).val; omega
  | ⟨1, _⟩ => show win1_2.index t (1 : Fin 2) * 64 + 1 * (j 1).val = (j 1).val; omega

theorem emb1_1 (t : Fin cfg1.N) (j : S1x64.Idx) :
    ((cfg1.win 1).blk t).view.emb j = j := by
  obtain ⟨e0, e1, e2, e3, e4, e5⟩ := idx_facts1 t
  funext a; apply Fin.ext
  match a with
  | ⟨0, _⟩ => show win1_1.index t (0 : Fin 2) * 1 + 1 * (j 0).val = (j 0).val; omega
  | ⟨1, _⟩ => show win1_1.index t (1 : Fin 2) * 64 + 1 * (j 1).val = (j 1).val; omega

theorem iblk1_0_apply (c : Dev nD) (t : Fin cfg1.N) (j : S5000x64.Idx) :
    iblk1 (F := Ideal) V c 0 t j = V c main_v29 (ix2 ⟨t.val * 5000 + (j 0).val, row1 t j⟩ ⟨(j 1).val, idx2_lt1 j⟩ : S50000x64.Idx) := by
  show V c main_v29 (((cfg1.win 0).blk t).view.emb j) = _
  rw [emb1_0]

theorem iblk1_1_eq (c : Dev nD) (t : Fin cfg1.N) :
    iblk1 (F := Ideal) V c 1 t = V c main_v30 := by
  funext j
  show V c main_v30 (((cfg1.win 1).blk t).view.emb j) = _
  rw [emb1_1]

theorem flushed1_eq (c : Dev nD) (t : Fin cfg1.N) :
    (dat1 (F := Ideal) V c).flushed 2 t
      = ((cfg1.win 2).blk t).view.read (Elt Ideal) (relu (addRow (V c main_v29) (V c main_v30))) := by
  show (cfg1.win 2).cut (grid1.coords t) ((dat1 V c).after 2 t) = _
  rw [after1_2]
  unfold out1_2
  rw [View.canon_unit_zero hz2]
  simp only [View.ld_unit_zero (S := S5000x64) hz2, View.ld_unit_zero (S := S1x64) hz2]
  rw [pay1_eq, iblk1_1_eq]
  funext j
  exact (relu_addRow_blk (V c main_v29) (V c main_v30) (iblk1 V c 0 t) t.val (row1 t) (iblk1_0_apply V c t) j).trans
    (congrArg (relu (addRow (V c main_v29) (V c main_v30))) (emb1_2 t j).symm)

theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v31).slice (win1_2.rect t)).set ↔ _
  rw [View.set_slice_whole, Rect.mem_set_unit]
  exact Iff.rfl

theorem cover1 (i : S50000x64.Idx) :
    ∃ t : Fin cfg1.N, (cfg1.win 2).flush t = true ∧ i ∈ ((cfg1.win 2).blk t).view.set := by
  have hi0 : (i 0).val < 50000 := idx2_lt0 i
  have hi1 : (i 1).val < 64 := idx2_lt1 i
  have ht : (i 0).val / 5000 < cfg1.N := lt_of_lt_of_eq (by omega) N_1.symm
  refine ⟨⟨(i 0).val / 5000, ht⟩, flush1_2 _, ?_⟩
  rw [mem_blk1]
  obtain ⟨e0, e1, e2, e3, e4, e5⟩ := idx_facts1 ⟨(i 0).val / 5000, ht⟩
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]; omega

theorem region1_value (c : Dev nD) : (dat1 (F := Ideal) V c).arrAt 2 cfg1.N = relu (addRow (V c main_v29) (V c main_v30)) :=
  (dat1 V c).arrAt_eq_of_cover 2 (relu (addRow (V c main_v29) (V c main_v30))) (fun t _ => flushed1_eq V c t) cover1

/-! ## Region 3: a [50000, 64] matrix plus its bias row, rectified -/

theorem pay3_eq (x0 : Vec Ideal S5000x64 .f32) (x1 : Vec Ideal S1x64 .f32) :
    k3_pay1 (F := Ideal) x0 x1 = relu (addRow x0 x1) := by
  funext j
  obtain ⟨p, q, rfl⟩ : ∃ (p : Fin 5000) (q : Fin 64), j = ix2 p q := ⟨j 0, j 1, eq_ix2 j⟩
  unfold k3_pay1
  simp only [shapeCast_self]
  rw [relu_apply, addRow_apply]
  show max (x0 (ix2 p q) + broadcastTo S5000x64 x1 broadcasts_S1x64_S5000x64 (ix2 p q)) (Ideal.ofBits .f32 0x00000000#32) = _
  rw [broadcastTo_1b_ab_apply, Ideal.ofBits_zero_f32]

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt3 (t : Fin cfg3.N) : t.val < 10 := lt_of_lt_of_eq t.isLt N_3

theorem row3 (t : Fin cfg3.N) (j : S5000x64.Idx) : t.val * 5000 + (j 0).val < 50000 := by
  have := lt3 t; have := idx2_lt0 j; omega

theorem emb3_0 (t : Fin cfg3.N) (j : S5000x64.Idx) :
    ((cfg3.win 0).blk t).view.emb j = (ix2 ⟨t.val * 5000 + (j 0).val, row3 t j⟩ ⟨(j 1).val, idx2_lt1 j⟩ : S50000x64.Idx) := by
  obtain ⟨e0, e1, e2, e3, e4, e5⟩ := idx_facts3 t
  funext a; apply Fin.ext
  match a with
  | ⟨0, _⟩ => show win3_0.index t (0 : Fin 2) * 5000 + 1 * (j 0).val = t.val * 5000 + (j 0).val; omega
  | ⟨1, _⟩ => show win3_0.index t (1 : Fin 2) * 64 + 1 * (j 1).val = (j 1).val; omega

theorem emb3_2 (t : Fin cfg3.N) (j : S5000x64.Idx) :
    ((cfg3.win 2).blk t).view.emb j = (ix2 ⟨t.val * 5000 + (j 0).val, row3 t j⟩ ⟨(j 1).val, idx2_lt1 j⟩ : S50000x64.Idx) := by
  obtain ⟨e0, e1, e2, e3, e4, e5⟩ := idx_facts3 t
  funext a; apply Fin.ext
  match a with
  | ⟨0, _⟩ => show win3_2.index t (0 : Fin 2) * 5000 + 1 * (j 0).val = t.val * 5000 + (j 0).val; omega
  | ⟨1, _⟩ => show win3_2.index t (1 : Fin 2) * 64 + 1 * (j 1).val = (j 1).val; omega

theorem emb3_1 (t : Fin cfg3.N) (j : S1x64.Idx) :
    ((cfg3.win 1).blk t).view.emb j = j := by
  obtain ⟨e0, e1, e2, e3, e4, e5⟩ := idx_facts3 t
  funext a; apply Fin.ext
  match a with
  | ⟨0, _⟩ => show win3_1.index t (0 : Fin 2) * 1 + 1 * (j 0).val = (j 0).val; omega
  | ⟨1, _⟩ => show win3_1.index t (1 : Fin 2) * 64 + 1 * (j 1).val = (j 1).val; omega

theorem iblk3_0_apply (c : Dev nD) (t : Fin cfg3.N) (j : S5000x64.Idx) :
    iblk3 (F := Ideal) V c 0 t j = V c main_v48 (ix2 ⟨t.val * 5000 + (j 0).val, row3 t j⟩ ⟨(j 1).val, idx2_lt1 j⟩ : S50000x64.Idx) := by
  show V c main_v48 (((cfg3.win 0).blk t).view.emb j) = _
  rw [emb3_0]

theorem iblk3_1_eq (c : Dev nD) (t : Fin cfg3.N) :
    iblk3 (F := Ideal) V c 1 t = V c main_v49 := by
  funext j
  show V c main_v49 (((cfg3.win 1).blk t).view.emb j) = _
  rw [emb3_1]

theorem flushed3_eq (c : Dev nD) (t : Fin cfg3.N) :
    (dat3 (F := Ideal) V c).flushed 2 t
      = ((cfg3.win 2).blk t).view.read (Elt Ideal) (relu (addRow (V c main_v48) (V c main_v49))) := by
  show (cfg3.win 2).cut (grid3.coords t) ((dat3 V c).after 2 t) = _
  rw [after3_2]
  unfold out3_2
  rw [View.canon_unit_zero hz2]
  simp only [View.ld_unit_zero (S := S5000x64) hz2, View.ld_unit_zero (S := S1x64) hz2]
  rw [pay3_eq, iblk3_1_eq]
  funext j
  exact (relu_addRow_blk (V c main_v48) (V c main_v49) (iblk3 V c 0 t) t.val (row3 t) (iblk3_0_apply V c t) j).trans
    (congrArg (relu (addRow (V c main_v48) (V c main_v49))) (emb3_2 t j).symm)

theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v50).slice (win3_2.rect t)).set ↔ _
  rw [View.set_slice_whole, Rect.mem_set_unit]
  exact Iff.rfl

theorem cover3 (i : S50000x64.Idx) :
    ∃ t : Fin cfg3.N, (cfg3.win 2).flush t = true ∧ i ∈ ((cfg3.win 2).blk t).view.set := by
  have hi0 : (i 0).val < 50000 := idx2_lt0 i
  have hi1 : (i 1).val < 64 := idx2_lt1 i
  have ht : (i 0).val / 5000 < cfg3.N := lt_of_lt_of_eq (by omega) N_3.symm
  refine ⟨⟨(i 0).val / 5000, ht⟩, flush3_2 _, ?_⟩
  rw [mem_blk3]
  obtain ⟨e0, e1, e2, e3, e4, e5⟩ := idx_facts3 ⟨(i 0).val / 5000, ht⟩
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e5]; omega

theorem region3_value (c : Dev nD) : (dat3 (F := Ideal) V c).arrAt 2 cfg3.N = relu (addRow (V c main_v48) (V c main_v49)) :=
  (dat3 V c).arrAt_eq_of_cover 2 (relu (addRow (V c main_v48) (V c main_v49))) (fun t _ => flushed3_eq V c t) cover3

/-! ## Region 5: a [50000, 47] matrix plus its bias row -/

theorem pay5_eq (x0 : Vec Ideal S5000x47 .f32) (x1 : Vec Ideal S1x47 .f32) :
    k5_pay1 (F := Ideal) x0 x1 = addRow x0 x1 := by
  funext j
  obtain ⟨p, q, rfl⟩ : ∃ (p : Fin 5000) (q : Fin 47), j = ix2 p q := ⟨j 0, j 1, eq_ix2 j⟩
  unfold k5_pay1
  simp only [shapeCast_self]
  rw [addRow_apply]
  show x0 (ix2 p q) + broadcastTo S5000x47 x1 broadcasts_S1x47_S5000x47 (ix2 p q) = _
  rw [broadcastTo_1b_ab_apply]

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem lt5 (t : Fin cfg5.N) : t.val < 10 := lt_of_lt_of_eq t.isLt N_5

theorem row5 (t : Fin cfg5.N) (j : S5000x47.Idx) : t.val * 5000 + (j 0).val < 50000 := by
  have := lt5 t; have := idx2_lt0 j; omega

theorem emb5_0 (t : Fin cfg5.N) (j : S5000x47.Idx) :
    ((cfg5.win 0).blk t).view.emb j = (ix2 ⟨t.val * 5000 + (j 0).val, row5 t j⟩ ⟨(j 1).val, idx2_lt1 j⟩ : S50000x47.Idx) := by
  obtain ⟨e0, e1, e2, e3, e4, e5⟩ := idx_facts5 t
  funext a; apply Fin.ext
  match a with
  | ⟨0, _⟩ => show win5_0.index t (0 : Fin 2) * 5000 + 1 * (j 0).val = t.val * 5000 + (j 0).val; omega
  | ⟨1, _⟩ => show win5_0.index t (1 : Fin 2) * 47 + 1 * (j 1).val = (j 1).val; omega

theorem emb5_2 (t : Fin cfg5.N) (j : S5000x47.Idx) :
    ((cfg5.win 2).blk t).view.emb j = (ix2 ⟨t.val * 5000 + (j 0).val, row5 t j⟩ ⟨(j 1).val, idx2_lt1 j⟩ : S50000x47.Idx) := by
  obtain ⟨e0, e1, e2, e3, e4, e5⟩ := idx_facts5 t
  funext a; apply Fin.ext
  match a with
  | ⟨0, _⟩ => show win5_2.index t (0 : Fin 2) * 5000 + 1 * (j 0).val = t.val * 5000 + (j 0).val; omega
  | ⟨1, _⟩ => show win5_2.index t (1 : Fin 2) * 47 + 1 * (j 1).val = (j 1).val; omega

theorem emb5_1 (t : Fin cfg5.N) (j : S1x47.Idx) :
    ((cfg5.win 1).blk t).view.emb j = j := by
  obtain ⟨e0, e1, e2, e3, e4, e5⟩ := idx_facts5 t
  funext a; apply Fin.ext
  match a with
  | ⟨0, _⟩ => show win5_1.index t (0 : Fin 2) * 1 + 1 * (j 0).val = (j 0).val; omega
  | ⟨1, _⟩ => show win5_1.index t (1 : Fin 2) * 47 + 1 * (j 1).val = (j 1).val; omega

theorem iblk5_0_apply (c : Dev nD) (t : Fin cfg5.N) (j : S5000x47.Idx) :
    iblk5 (F := Ideal) V c 0 t j = V c main_v67 (ix2 ⟨t.val * 5000 + (j 0).val, row5 t j⟩ ⟨(j 1).val, idx2_lt1 j⟩ : S50000x47.Idx) := by
  show V c main_v67 (((cfg5.win 0).blk t).view.emb j) = _
  rw [emb5_0]

theorem iblk5_1_eq (c : Dev nD) (t : Fin cfg5.N) :
    iblk5 (F := Ideal) V c 1 t = V c main_v68 := by
  funext j
  show V c main_v68 (((cfg5.win 1).blk t).view.emb j) = _
  rw [emb5_1]

theorem flushed5_eq (c : Dev nD) (t : Fin cfg5.N) :
    (dat5 (F := Ideal) V c).flushed 2 t
      = ((cfg5.win 2).blk t).view.read (Elt Ideal) (addRow (V c main_v67) (V c main_v68)) := by
  show (cfg5.win 2).cut (grid5.coords t) ((dat5 V c).after 2 t) = _
  rw [after5_2]
  unfold out5_2
  rw [View.canon_unit_zero hz2]
  simp only [View.ld_unit_zero (S := S5000x47) hz2, View.ld_unit_zero (S := S1x47) hz2]
  rw [pay5_eq, iblk5_1_eq]
  funext j
  exact (addRow_blk (V c main_v67) (V c main_v68) (iblk5 V c 0 t) t.val (row5 t) (iblk5_0_apply V c t) j).trans
    (congrArg (addRow (V c main_v67) (V c main_v68)) (emb5_2 t j).symm)

theorem mem_blk5 (t : Fin cfg5.N) (i : S50000x47.Idx) :
    i ∈ ((cfg5.win 2).blk t).view.set ↔ ∀ a : Fin 2, win5_2.index t a * S5000x47.size a ≤ (i a).val ∧ (i a).val < win5_2.index t a * S5000x47.size a + S5000x47.size a := by
  show i ∈ ((View.whole main_v69).slice (win5_2.rect t)).set ↔ _
  rw [View.set_slice_whole, Rect.mem_set_unit]
  exact Iff.rfl

theorem cover5 (i : S50000x47.Idx) :
    ∃ t : Fin cfg5.N, (cfg5.win 2).flush t = true ∧ i ∈ ((cfg5.win 2).blk t).view.set := by
  have hi0 : (i 0).val < 50000 := idx2_lt0 i
  have hi1 : (i 1).val < 47 := idx2_lt1 i
  have ht : (i 0).val / 5000 < cfg5.N := lt_of_lt_of_eq (by omega) N_5.symm
  refine ⟨⟨(i 0).val / 5000, ht⟩, flush5_2 _, ?_⟩
  rw [mem_blk5]
  obtain ⟨e0, e1, e2, e3, e4, e5⟩ := idx_facts5 ⟨(i 0).val / 5000, ht⟩
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 47 ≤ (i 1).val ∧ (i 1).val < win5_2.index ⟨(i 0).val / 5000, ht⟩ (1 : Fin 2) * 47 + 47
    rw [e5]; omega

theorem region5_value (c : Dev nD) : (dat5 (F := Ideal) V c).arrAt 2 cfg5.N = addRow (V c main_v67) (V c main_v68) :=
  (dat5 V c).arrAt_eq_of_cover 2 (addRow (V c main_v67) (V c main_v68)) (fun t _ => flushed5_eq V c t) cover5

end Cert.KernelIdeal.RegionValue

end
-- ==== Proof.KernelValue.lean ====
/-
  What the idealized kernel's result buffer holds at the end of the run, as one function of the launch contents.

  The run's buffer contents at the segment boundaries are a fold from the launch memory. This module walks that fold
  once, boundary by boundary. The first stretch of host operations computes the two vectors of scale factors from the
  edge lists; then each layer is a product region (the node features times the weights), a stretch of host operations
  (scale the rows, gather the rows the edges read, scatter-add them at the destinations, scale the rows again: the
  aggregation of the product; and the bias vector viewed as one row), and a bias region (the row added to every row,
  rectified in the first two layers). A buffer that a stretch does not write and that is not a region's array is the
  same at the next boundary. At the last boundary the result buffer holds the three-layer network, multiplying first
  in each layer, of the launch contents.
-/
import proofs.«128478_j30691836297929_1_alg».proof.Proof.Gen.KernelIdeal.Frame
import proofs.«128478_j30691836297929_1_alg».proof.Proof.LibGcnSpec
import proofs.«128478_j30691836297929_1_alg».proof.Proof.LibGcnHost
import proofs.«128478_j30691836297929_1_alg».proof.Proof.LibGcnNet
import proofs.«128478_j30691836297929_1_alg».proof.Proof.RegionMatmul
import proofs.«128478_j30691836297929_1_alg».proof.Proof.RegionBias
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem Idealize.ShloMosaic.StableHlo
open Cert.KernelIdeal Cert.KernelIdeal.Gen Cert.KernelIdeal.RegionValue Cert.WholeMat Cert.Gcn

/-- The column of node numbers the edges read: a negative number is first moved up by the node count. -/
def srcCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The column of node numbers the edges are delivered to. -/
def dstCol (dst : IVec S800000 32) : IVec S800000x1 32 := broadcastInDim S800000x1 ![0] bcast_S800000_S800000x1_0 dst

/-- A node's scale factor: the reciprocal square root of the number of edges naming it, or of one if that is larger. -/
def degNorm (idx : IVec S800000 32) : FVec Ideal S50000 .f32 :=
  Host.rsqrt (maximumf
    (Host.scatterAdd scatter_S50000_S800000x1_S800000_n_0_0_1 (broadcastInDim S50000 ![] bcast_S_S50000 (constant S_ .f32 0x00000000#32))
      (broadcastInDim S800000x1 ![0] bcast_S800000_S800000x1_0 idx) (broadcastInDim S800000 ![] bcast_S_S800000 (constant S_ .f32 0x3F800000#32)))
    (broadcastInDim S50000 ![] bcast_S_S50000 (constant S_ .f32 0x3F800000#32)))

/-- There is at least one node. -/
theorem hN : 0 < 50000 := by decide

variable (m : (ℓ : Loc nD τ sig) → Buf (Elt Ideal) ℓ) (ρ : Dev nD → PrngReg) (c : Dev nD)

/-- The launch contents of the nine arguments: the node features, three weight matrices and three bias vectors, and
    the edges' source and destination numbers. -/
abbrev a0 : Mat 50000 100 := m ((c : Thread nD τ).loc main_arg0)
abbrev a1 : Mat 100 64 := m ((c : Thread nD τ).loc main_arg1)
abbrev a2 : RVec 64 := m ((c : Thread nD τ).loc main_arg2)
abbrev a3 : Mat 64 64 := m ((c : Thread nD τ).loc main_arg3)
abbrev a4 : RVec 64 := m ((c : Thread nD τ).loc main_arg4)
abbrev a5 : Mat 64 47 := m ((c : Thread nD τ).loc main_arg5)
abbrev a6 : RVec 47 := m ((c : Thread nD τ).loc main_arg6)
abbrev a7 : IVec S800000 32 := m ((c : Thread nD τ).loc main_arg7)
abbrev a8 : IVec S800000 32 := m ((c : Thread nD τ).loc main_arg8)

/-- The source and destination scale factors and the two edge columns, of the launch contents. -/
abbrev ns : RVec 50000 := degNorm (a7 m c)
abbrev nd : RVec 50000 := degNorm (a8 m c)
abbrev sc : Col 800000 := srcCol (a7 m c)
abbrev dc : Col 800000 := dstCol (a8 m c)

/-- The first and the second layer's rectified outputs, multiplying first. -/
abbrev h1 : Mat 50000 64 := relu (layerK hN (ns m c) (nd m c) (sc m c) (dc m c) (a0 m c) (a1 m c) (a2 m c))
abbrev h2 : Mat 50000 64 := relu (layerK hN (ns m c) (nd m c) (sc m c) (dc m c) (h1 m c) (a3 m c) (a4 m c))

/-- A stretch of host operations leaves a buffer it does not write as the previous boundary had it. -/
macro "kept_by " ops:ident " from " prev:term : tactic =>
  `(tactic| (show StableHlo.after $ops _ _ = _; after_results; exact $prev))

/-! ## After the first stretch of host operations: the scale factors are there, the arguments are untouched -/

theorem W1_arg0 : W1 (F := Ideal) m ρ c (Proc.devRef .tc main_arg0) = a0 m c := by
  show StableHlo.after hostOps0 (W0 m ρ c) (Proc.devRef .tc main_arg0) = _; after_results
theorem W1_arg1 : W1 (F := Ideal) m ρ c (Proc.devRef .tc main_arg1) = a1 m c := by
  show StableHlo.after hostOps0 (W0 m ρ c) (Proc.devRef .tc main_arg1) = _; after_results
theorem W1_arg2 : W1 (F := Ideal) m ρ c (Proc.devRef .tc main_arg2) = a2 m c := by
  show StableHlo.after hostOps0 (W0 m ρ c) (Proc.devRef .tc main_arg2) = _; after_results
theorem W1_arg3 : W1 (F := Ideal) m ρ c (Proc.devRef .tc main_arg3) = a3 m c := by
  show StableHlo.after hostOps0 (W0 m ρ c) (Proc.devRef .tc main_arg3) = _; after_results
theorem W1_arg4 : W1 (F := Ideal) m ρ c (Proc.devRef .tc main_arg4) = a4 m c := by
  show StableHlo.after hostOps0 (W0 m ρ c) (Proc.devRef .tc main_arg4) = _; after_results
theorem W1_arg5 : W1 (F := Ideal) m ρ c (Proc.devRef .tc main_arg5) = a5 m c := by
  show StableHlo.after hostOps0 (W0 m ρ c) (Proc.devRef .tc main_arg5) = _; after_results
theorem W1_arg6 : W1 (F := Ideal) m ρ c (Proc.devRef .tc main_arg6) = a6 m c := by
  show StableHlo.after hostOps0 (W0 m ρ c) (Proc.devRef .tc main_arg6) = _; after_results
theorem W1_arg7 : W1 (F := Ideal) m ρ c (Proc.devRef .tc main_arg7) = a7 m c := by
  show StableHlo.after hostOps0 (W0 m ρ c) (Proc.devRef .tc main_arg7) = _; after_results
theorem W1_arg8 : W1 (F := Ideal) m ρ c (Proc.devRef .tc main_arg8) = a8 m c := by
  show StableHlo.after hostOps0 (W0 m ρ c) (Proc.devRef .tc main_arg8) = _; after_results
theorem W1_v9 : W1 (F := Ideal) m ρ c (Proc.devRef .tc main_v9) = ns m c := by
  show StableHlo.after hostOps0 (W0 m ρ c) (Proc.devRef .tc main_v9) = _; after_results; rfl
theorem W1_v12 : W1 (F := Ideal) m ρ c (Proc.devRef .tc main_v12) = nd m c := by
  show StableHlo.after hostOps0 (W0 m ρ c) (Proc.devRef .tc main_v12) = _; after_results; rfl

/-! ## After the first product region -/

theorem W2_v13 : W2 (F := Ideal) m ρ c (Proc.devRef .tc main_v13) = mm (a0 m c) (a1 m c) := by
  refine (W2_arr m ρ c 2).trans ((region0_value (V1 m ρ) c).trans ?_)
  rw [show V1 m ρ c main_arg0 = a0 m c from W1_arg0 m ρ c, show V1 m ρ c main_arg1 = a1 m c from W1_arg1 m ρ c]
theorem W2_arg2 : W2 (F := Ideal) m ρ c (Proc.devRef .tc main_arg2) = a2 m c :=
  (W2_of_ne m ρ c main_arg2 (by decide)).trans (W1_arg2 m ρ c)
theorem W2_arg3 : W2 (F := Ideal) m ρ c (Proc.devRef .tc main_arg3) = a3 m c :=
  (W2_of_ne m ρ c main_arg3 (by decide)).trans (W1_arg3 m ρ c)
theorem W2_arg4 : W2 (F := Ideal) m ρ c (Proc.devRef .tc main_arg4) = a4 m c :=
  (W2_of_ne m ρ c main_arg4 (by decide)).trans (W1_arg4 m ρ c)
theorem W2_arg5 : W2 (F := Ideal) m ρ c (Proc.devRef .tc main_arg5) = a5 m c :=
  (W2_of_ne m ρ c main_arg5 (by decide)).trans (W1_arg5 m ρ c)
theorem W2_arg6 : W2 (F := Ideal) m ρ c (Proc.devRef .tc main_arg6) = a6 m c :=
  (W2_of_ne m ρ c main_arg6 (by decide)).trans (W1_arg6 m ρ c)
theorem W2_arg7 : W2 (F := Ideal) m ρ c (Proc.devRef .tc main_arg7) = a7 m c :=
  (W2_of_ne m ρ c main_arg7 (by decide)).trans (W1_arg7 m ρ c)
theorem W2_arg8 : W2 (F := Ideal) m ρ c (Proc.devRef .tc main_arg8) = a8 m c :=
  (W2_of_ne m ρ c main_arg8 (by decide)).trans (W1_arg8 m ρ c)
theorem W2_v9 : W2 (F := Ideal) m ρ c (Proc.devRef .tc main_v9) = ns m c :=
  (W2_of_ne m ρ c main_v9 (by decide)).trans (W1_v9 m ρ c)
theorem W2_v12 : W2 (F := Ideal) m ρ c (Proc.devRef .tc main_v12) = nd m c :=
  (W2_of_ne m ρ c main_v12 (by decide)).trans (W1_v12 m ρ c)

/-! ## After the second stretch: the aggregation of the first product, and the first bias as one row -/

theorem W3_v29 : W3 (F := Ideal) m ρ c (Proc.devRef .tc main_v29)
    = agg hN (ns m c) (nd m c) (sc m c) (dc m c) (mm (a0 m c) (a1 m c)) := by
  show StableHlo.after hostOps1 (W2 m ρ c) (Proc.devRef .tc main_v29) = _
  after_results_simp
  rw [W2_v13 m ρ c, W2_v9 m ρ c, W2_v12 m ρ c, W2_arg7 m ρ c, W2_arg8 m ρ c]
  exact hostAgg_eq hN gather_S50000x64_S800000x1_S800000x64_1_0_n_n_0_1_164 gather_S50000x64_S800000x1_S800000x64_1_0_n_n_0_1_164_wf rfl
    scatter_S50000x64_S800000x1_S800000x64_1_0_0_1 scatter_S50000x64_S800000x1_S800000x64_1_0_0_1_wf rfl _ _ _ _ _
    (ns m c) (nd m c) (sc m c) (dc m c) _
theorem W3_v30 : W3 (F := Ideal) m ρ c (Proc.devRef .tc main_v30) = shapeCast S1x64 (a2 m c) shapeCasts_S64_S1x64 := by
  show StableHlo.after hostOps1 (W2 m ρ c) (Proc.devRef .tc main_v30) = _
  after_results
  rw [W2_arg2 m ρ c]
  rfl
theorem W3_arg3 : W3 (F := Ideal) m ρ c (Proc.devRef .tc main_arg3) = a3 m c := by kept_by hostOps1 from W2_arg3 m ρ c
theorem W3_arg4 : W3 (F := Ideal) m ρ c (Proc.devRef .tc main_arg4) = a4 m c := by kept_by hostOps1 from W2_arg4 m ρ c
theorem W3_arg5 : W3 (F := Ideal) m ρ c (Proc.devRef .tc main_arg5) = a5 m c := by kept_by hostOps1 from W2_arg5 m ρ c
theorem W3_arg6 : W3 (F := Ideal) m ρ c (Proc.devRef .tc main_arg6) = a6 m c := by kept_by hostOps1 from W2_arg6 m ρ c
theorem W3_arg7 : W3 (F := Ideal) m ρ c (Proc.devRef .tc main_arg7) = a7 m c := by kept_by hostOps1 from W2_arg7 m ρ c
theorem W3_arg8 : W3 (F := Ideal) m ρ c (Proc.devRef .tc main_arg8) = a8 m c := by kept_by hostOps1 from W2_arg8 m ρ c
theorem W3_v9 : W3 (F := Ideal) m ρ c (Proc.devRef .tc main_v9) = ns m c := by kept_by hostOps1 from W2_v9 m ρ c
theorem W3_v12 : W3 (F := Ideal) m ρ c (Proc.devRef .tc main_v12) = nd m c := by kept_by hostOps1 from W2_v12 m ρ c

/-! ## After the first bias region: the first layer's output -/

theorem W4_v31 : W4 (F := Ideal) m ρ c (Proc.devRef .tc main_v31) = h1 m c := by
  refine (W4_arr m ρ c 2).trans ((region1_value (V3 m ρ) c).trans ?_)
  rw [show V3 m ρ c main_v29 = _ from W3_v29 m ρ c, show V3 m ρ c main_v30 = _ from W3_v30 m ρ c]
  exact congrArg relu (addRow_shapeCast _ _ _)
theorem W4_arg3 : W4 (F := Ideal) m ρ c (Proc.devRef .tc main_arg3) = a3 m c :=
  (W4_of_ne m ρ c main_arg3 (by decide)).trans (W3_arg3 m ρ c)
theorem W4_arg4 : W4 (F := Ideal) m ρ c (Proc.devRef .tc main_arg4) = a4 m c :=
  (W4_of_ne m ρ c main_arg4 (by decide)).trans (W3_arg4 m ρ c)
theorem W4_arg5 : W4 (F := Ideal) m ρ c (Proc.devRef .tc main_arg5) = a5 m c :=
  (W4_of_ne m ρ c main_arg5 (by decide)).trans (W3_arg5 m ρ c)
theorem W4_arg6 : W4 (F := Ideal) m ρ c (Proc.devRef .tc main_arg6) = a6 m c :=
  (W4_of_ne m ρ c main_arg6 (by decide)).trans (W3_arg6 m ρ c)
theorem W4_arg7 : W4 (F := Ideal) m ρ c (Proc.devRef .tc main_arg7) = a7 m c :=
  (W4_of_ne m ρ c main_arg7 (by decide)).trans (W3_arg7 m ρ c)
theorem W4_arg8 : W4 (F := Ideal) m ρ c (Proc.devRef .tc main_arg8) = a8 m c :=
  (W4_of_ne m ρ c main_arg8 (by decide)).trans (W3_arg8 m ρ c)
theorem W4_v9 : W4 (F := Ideal) m ρ c (Proc.devRef .tc main_v9) = ns m c :=
  (W4_of_ne m ρ c main_v9 (by decide)).trans (W3_v9 m ρ c)
theorem W4_v12 : W4 (F := Ideal) m ρ c (Proc.devRef .tc main_v12) = nd m c :=
  (W4_of_ne m ρ c main_v12 (by decide)).trans (W3_v12 m ρ c)

/-! ## After the second product region -/

theorem W5_v32 : W5 (F := Ideal) m ρ c (Proc.devRef .tc main_v32) = mm (h1 m c) (a3 m c) := by
  refine (W5_arr m ρ c 2).trans ((region2_value (V4 m ρ) c).trans ?_)
  rw [show V4 m ρ c main_v31 = h1 m c from W4_v31 m ρ c, show V4 m ρ c main_arg3 = a3 m c from W4_arg3 m ρ c]
theorem W5_arg4 : W5 (F := Ideal) m ρ c (Proc.devRef .tc main_arg4) = a4 m c :=
  (W5_of_ne m ρ c main_arg4 (by decide)).trans (W4_arg4 m ρ c)
theorem W5_arg5 : W5 (F := Ideal) m ρ c (Proc.devRef .tc main_arg5) = a5 m c :=
  (W5_of_ne m ρ c main_arg5 (by decide)).trans (W4_arg5 m ρ c)
theorem W5_arg6 : W5 (F := Ideal) m ρ c (Proc.devRef .tc main_arg6) = a6 m c :=
  (W5_of_ne m ρ c main_arg6 (by decide)).trans (W4_arg6 m ρ c)
theorem W5_arg7 : W5 (F := Ideal) m ρ c (Proc.devRef .tc main_arg7) = a7 m c :=
  (W5_of_ne m ρ c main_arg7 (by decide)).trans (W4_arg7 m ρ c)
theorem W5_arg8 : W5 (F := Ideal) m ρ c (Proc.devRef .tc main_arg8) = a8 m c :=
  (W5_of_ne m ρ c main_arg8 (by decide)).trans (W4_arg8 m ρ c)
theorem W5_v9 : W5 (F := Ideal) m ρ c (Proc.devRef .tc main_v9) = ns m c :=
  (W5_of_ne m ρ c main_v9 (by decide)).trans (W4_v9 m ρ c)
theorem W5_v12 : W5 (F := Ideal) m ρ c (Proc.devRef .tc main_v12) = nd m c :=
  (W5_of_ne m ρ c main_v12 (by decide)).trans (W4_v12 m ρ c)

/-! ## After the third stretch: the aggregation of the second product, and the second bias as one row -/

theorem W6_v48 : W6 (F := Ideal) m ρ c (Proc.devRef .tc main_v48)
    = agg hN (ns m c) (nd m c) (sc m c) (dc m c) (mm (h1 m c) (a3 m c)) := by
  show StableHlo.after hostOps3 (W5 m ρ c) (Proc.devRef .tc main_v48) = _
  after_results_simp
  rw [W5_v32 m ρ c, W5_v9 m ρ c, W5_v12 m ρ c, W5_arg7 m ρ c, W5_arg8 m ρ c]
  exact hostAgg_eq hN gather_S50000x64_S800000x1_S800000x64_1_0_n_n_0_1_164 gather_S50000x64_S800000x1_S800000x64_1_0_n_n_0_1_164_wf rfl
    scatter_S50000x64_S800000x1_S800000x64_1_0_0_1 scatter_S50000x64_S800000x1_S800000x64_1_0_0_1_wf rfl _ _ _ _ _
    (ns m c) (nd m c) (sc m c) (dc m c) _
theorem W6_v49 : W6 (F := Ideal) m ρ c (Proc.devRef .tc main_v49) = shapeCast S1x64 (a4 m c) shapeCasts_S64_S1x64 := by
  show StableHlo.after hostOps3 (W5 m ρ c) (Proc.devRef .tc main_v49) = _
  after_results
  rw [W5_arg4 m ρ c]
  rfl
theorem W6_arg5 : W6 (F := Ideal) m ρ c (Proc.devRef .tc main_arg5) = a5 m c := by kept_by hostOps3 from W5_arg5 m ρ c
theorem W6_arg6 : W6 (F := Ideal) m ρ c (Proc.devRef .tc main_arg6) = a6 m c := by kept_by hostOps3 from W5_arg6 m ρ c
theorem W6_arg7 : W6 (F := Ideal) m ρ c (Proc.devRef .tc main_arg7) = a7 m c := by kept_by hostOps3 from W5_arg7 m ρ c
theorem W6_arg8 : W6 (F := Ideal) m ρ c (Proc.devRef .tc main_arg8) = a8 m c := by kept_by hostOps3 from W5_arg8 m ρ c
theorem W6_v9 : W6 (F := Ideal) m ρ c (Proc.devRef .tc main_v9) = ns m c := by kept_by hostOps3 from W5_v9 m ρ c
theorem W6_v12 : W6 (F := Ideal) m ρ c (Proc.devRef .tc main_v12) = nd m c := by kept_by hostOps3 from W5_v12 m ρ c

/-! ## After the second bias region: the second layer's output -/

theorem W7_v50 : W7 (F := Ideal) m ρ c (Proc.devRef .tc main_v50) = h2 m c := by
  refine (W7_arr m ρ c 2).trans ((region3_value (V6 m ρ) c).trans ?_)
  rw [show V6 m ρ c main_v48 = _ from W6_v48 m ρ c, show V6 m ρ c main_v49 = _ from W6_v49 m ρ c]
  exact congrArg relu (addRow_shapeCast _ _ _)
theorem W7_arg5 : W7 (F := Ideal) m ρ c (Proc.devRef .tc main_arg5) = a5 m c :=
  (W7_of_ne m ρ c main_arg5 (by decide)).trans (W6_arg5 m ρ c)
theorem W7_arg6 : W7 (F := Ideal) m ρ c (Proc.devRef .tc main_arg6) = a6 m c :=
  (W7_of_ne m ρ c main_arg6 (by decide)).trans (W6_arg6 m ρ c)
theorem W7_arg7 : W7 (F := Ideal) m ρ c (Proc.devRef .tc main_arg7) = a7 m c :=
  (W7_of_ne m ρ c main_arg7 (by decide)).trans (W6_arg7 m ρ c)
theorem W7_arg8 : W7 (F := Ideal) m ρ c (Proc.devRef .tc main_arg8) = a8 m c :=
  (W7_of_ne m ρ c main_arg8 (by decide)).trans (W6_arg8 m ρ c)
theorem W7_v9 : W7 (F := Ideal) m ρ c (Proc.devRef .tc main_v9) = ns m c :=
  (W7_of_ne m ρ c main_v9 (by decide)).trans (W6_v9 m ρ c)
theorem W7_v12 : W7 (F := Ideal) m ρ c (Proc.devRef .tc main_v12) = nd m c :=
  (W7_of_ne m ρ c main_v12 (by decide)).trans (W6_v12 m ρ c)

/-! ## After the third product region -/

theorem W8_v51 : W8 (F := Ideal) m ρ c (Proc.devRef .tc main_v51) = mm (h2 m c) (a5 m c) := by
  refine (W8_arr m ρ c 2).trans ((region4_value (V7 m ρ) c).trans ?_)
  rw [show V7 m ρ c main_v50 = h2 m c from W7_v50 m ρ c, show V7 m ρ c main_arg5 = a5 m c from W7_arg5 m ρ c]
theorem W8_arg6 : W8 (F := Ideal) m ρ c (Proc.devRef .tc main_arg6) = a6 m c :=
  (W8_of_ne m ρ c main_arg6 (by decide)).trans (W7_arg6 m ρ c)
theorem W8_arg7 : W8 (F := Ideal) m ρ c (Proc.devRef .tc main_arg7) = a7 m c :=
  (W8_of_ne m ρ c main_arg7 (by decide)).trans (W7_arg7 m ρ c)
theorem W8_arg8 : W8 (F := Ideal) m ρ c (Proc.devRef .tc main_arg8) = a8 m c :=
  (W8_of_ne m ρ c main_arg8 (by decide)).trans (W7_arg8 m ρ c)
theorem W8_v9 : W8 (F := Ideal) m ρ c (Proc.devRef .tc main_v9) = ns m c :=
  (W8_of_ne m ρ c main_v9 (by decide)).trans (W7_v9 m ρ c)
theorem W8_v12 : W8 (F := Ideal) m ρ c (Proc.devRef .tc main_v12) = nd m c :=
  (W8_of_ne m ρ c main_v12 (by decide)).trans (W7_v12 m ρ c)

/-! ## After the last stretch: the aggregation of the third product, and the third bias as one row -/

theorem W9_v67 : W9 (F := Ideal) m ρ c (Proc.devRef .tc main_v67)
    = agg hN (ns m c) (nd m c) (sc m c) (dc m c) (mm (h2 m c) (a5 m c)) := by
  show StableHlo.after hostOps5 (W8 m ρ c) (Proc.devRef .tc main_v67) = _
  after_results_simp
  rw [W8_v51 m ρ c, W8_v9 m ρ c, W8_v12 m ρ c, W8_arg7 m ρ c, W8_arg8 m ρ c]
  exact hostAgg_eq hN gather_S50000x47_S800000x1_S800000x47_1_0_n_n_0_1_147 gather_S50000x47_S800000x1_S800000x47_1_0_n_n_0_1_147_wf rfl
    scatter_S50000x47_S800000x1_S800000x47_1_0_0_1 scatter_S50000x47_S800000x1_S800000x47_1_0_0_1_wf rfl _ _ _ _ _
    (ns m c) (nd m c) (sc m c) (dc m c) _
theorem W9_v68 : W9 (F := Ideal) m ρ c (Proc.devRef .tc main_v68) = shapeCast S1x47 (a6 m c) shapeCasts_S47_S1x47 := by
  show StableHlo.after hostOps5 (W8 m ρ c) (Proc.devRef .tc main_v68) = _
  after_results
  rw [W8_arg6 m ρ c]
  rfl

/-! ## After the last bias region: the result -/

/-- THE KERNEL'S RESULT: at the last boundary the result buffer holds the three-layer network, multiplying first in
    each layer, of the launch contents. -/
theorem result_eq : W10 (F := Ideal) m ρ c (Proc.devRef .tc main_v69)
    = netK hN (ns m c) (nd m c) (sc m c) (dc m c) (a0 m c) (a1 m c) (a2 m c) (a3 m c) (a4 m c) (a5 m c) (a6 m c) := by
  refine (W10_arr m ρ c 2).trans ((region5_value (V9 m ρ) c).trans ?_)
  rw [show V9 m ρ c main_v67 = _ from W9_v67 m ρ c, show V9 m ρ c main_v68 = _ from W9_v68 m ρ c]
  exact addRow_shapeCast _ _ _

end Cert.KernelIdeal.RunValue

end
-- ==== Proof.RefValue.lean ====
/-
  What the idealized reference computes, as one function of its arguments.

  The reference's result is one long composition of host operations. Read piece by piece it is the three-layer network
  that aggregates first in each layer: the two vectors of scale factors from the edge lists; in each layer the rows
  scaled, the rows the edges read gathered and scatter-added at the destinations, the rows scaled again (the
  aggregation), a plain product with the weights, the bias vector broadcast down the rows and added, and after the first
  two layers the maximum with a zero matrix (the rectification).
-/
import proofs.«128478_j30691836297929_1_alg».proof.Proof.Gen.ReferenceIdeal.Run
import proofs.«128478_j30691836297929_1_alg».proof.Proof.LibGcnSpec
import proofs.«128478_j30691836297929_1_alg».proof.Proof.LibGcnHost
import proofs.«128478_j30691836297929_1_alg».proof.Proof.LibGcnNet

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.WholeMat Cert.Gcn

/-- The column of node numbers the edges read: a negative number is first moved up by the node count. -/
def srcCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The column of node numbers the edges are delivered to. -/
def dstCol (dst : IVec S800000 32) : IVec S800000x1 32 := broadcastInDim S800000x1 ![0] bcast_S800000_S800000x1_0 dst

/-- A node's scale factor: the reciprocal square root of the number of edges naming it, or of one if that is larger. -/
def degNorm (idx : IVec S800000 32) : FVec Ideal S50000 .f32 :=
  Host.rsqrt (maximumf
    (Host.scatterAdd scatter_S50000_S800000x1_S800000_n_0_0_1 (broadcastInDim S50000 ![] bcast_S_S50000 (constant S_ .f32 0x00000000#32))
      (broadcastInDim S800000x1 ![0] bcast_S800000_S800000x1_0 idx) (broadcastInDim S800000 ![] bcast_S_S800000 (constant S_ .f32 0x3F800000#32)))
    (broadcastInDim S50000 ![] bcast_S_S50000 (constant S_ .f32 0x3F800000#32)))

/-- There is at least one node. -/
theorem hN : 0 < 50000 := by decide

variable (m : (ℓ : Loc nD τ sig) → Buf (Elt Ideal) ℓ) (c : Dev nD)

/-- The launch contents of the nine arguments. -/
abbrev a0 : Mat 50000 100 := m ((c.tc : Thread nD τ).loc main_arg0)
abbrev a1 : Mat 100 64 := m ((c.tc : Thread nD τ).loc main_arg1)
abbrev a2 : RVec 64 := m ((c.tc : Thread nD τ).loc main_arg2)
abbrev a3 : Mat 64 64 := m ((c.tc : Thread nD τ).loc main_arg3)
abbrev a4 : RVec 64 := m ((c.tc : Thread nD τ).loc main_arg4)
abbrev a5 : Mat 64 47 := m ((c.tc : Thread nD τ).loc main_arg5)
abbrev a6 : RVec 47 := m ((c.tc : Thread nD τ).loc main_arg6)
abbrev a7 : IVec S800000 32 := m ((c.tc : Thread nD τ).loc main_arg7)
abbrev a8 : IVec S800000 32 := m ((c.tc : Thread nD τ).loc main_arg8)

/-- THE REFERENCE'S RESULT is the three-layer network, aggregating first in each layer, of the launch contents. -/
theorem res_eq : res_main_v74 (F := Ideal) m c
    = netR hN (degNorm (a7 m c)) (degNorm (a8 m c)) (srcCol (a7 m c)) (dstCol (a8 m c))
        (a0 m c) (a1 m c) (a2 m c) (a3 m c) (a4 m c) (a5 m c) (a6 m c) := by
  unfold res_main_v74
  -- outermost first: the third layer's bias, product and aggregation, then the second layer's, then the first's
  rw [hostAddVec_eq]
  rw [dotGeneral_eq_mm dot_S50000x64_S64x47_S50000x47_1_0_0_1_n_n rfl]
  rw [hostAgg_eq hN gather_S50000x64_S800000x1_S800000x64_1_0_n_n_0_1_164 gather_S50000x64_S800000x1_S800000x64_1_0_n_n_0_1_164_wf rfl
      scatter_S50000x64_S800000x1_S800000x64_1_0_0_1 scatter_S50000x64_S800000x1_S800000x64_1_0_0_1_wf rfl]
  rw [hostRelu_eq]
  rw [hostAddVec_eq]
  rw [dotGeneral_eq_mm dot_S50000x64_S64x64_S50000x64_1_0_0_1_n_n rfl]
  rw [hostAgg_eq hN gather_S50000x64_S800000x1_S800000x64_1_0_n_n_0_1_164 gather_S50000x64_S800000x1_S800000x64_1_0_n_n_0_1_164_wf rfl
      scatter_S50000x64_S800000x1_S800000x64_1_0_0_1 scatter_S50000x64_S800000x1_S800000x64_1_0_0_1_wf rfl]
  rw [hostRelu_eq]
  rw [hostAddVec_eq]
  rw [dotGeneral_eq_mm dot_S50000x100_S100x64_S50000x64_1_0_0_1_n_n rfl]
  rw [hostAgg_eq hN gather_S50000x100_S800000x1_S800000x100_1_0_n_n_0_1_1100 gather_S50000x100_S800000x1_S800000x100_1_0_n_n_0_1_1100_wf rfl
      scatter_S50000x100_S800000x1_S800000x100_1_0_0_1 scatter_S50000x100_S800000x1_S800000x100_1_0_0_1_wf rfl]
  rfl

end Cert.ReferenceIdeal.RefValue

end
-- ==== Proof.Finite.lean ====
/-
  From "every float input is finite" to "every entry of every float argument is a real number".

  The predicate compares, entry by entry, the absolute value |x| = max x (-x) with +infinity (the pattern
  0x7F800000), folds the comparisons by "and" from the word 1 over all axes, and conjoins the seven results.
  If the whole is 1, each fold is 1, so each comparison is 1: |x| < +infinity at every entry. On the extended
  reals that excludes the two infinities, and what is left is a real number.
-/
import proofs.«128478_j30691836297929_1_alg».proof.Pre_finite_inputs
import proofs.«128478_j30691836297929_1_alg».proof.Proof.Gen.Pre_finite_inputs
import proofs.«128478_j30691836297929_1_alg».proof.Proof.LibFinite
import Idealize.ShloMosaic.Lib.ValueIdx
import Idealize.ShloMosaic.Lib.ReduceAll
import Idealize.ShloMosaic.PureOps.Ideal.Laws

noncomputable section

namespace Cert.Pre_finite_inputs.Finite

open Idealize.ShloMosaic Idealize.ShloMosaic.ValueIdx Cert.Pre_finite_inputs Cert.Fin

/-- The pattern 0x7F800000 denotes +infinity. -/
theorem ofBits_inf : Ideal.ofBits .f32 0x7F800000#32 = (⊤ : EReal) := by simp [Ideal.ofBits, Ideal.ieee]

/-- An extended real whose absolute value max a (-a) is below +infinity is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The entry fact: the comparison |a| < +infinity answering 1 makes a a real number. -/
theorem real_of_cmp (a : Ideal .f32)
    (h : FloatOps.cmpf .olt (FloatOps.hostAbsf a) (FloatOps.ofBits (F := Ideal) .f32 0x7F800000#32) = 1#1) :
    ∃ r : ℝ, a = (r : EReal) := by
  change Ideal.cmp .olt (max a (-a)) (Ideal.ofBits .f32 0x7F800000#32) = 1#1 at h
  rw [ofBits_inf] at h
  refine real_of_abs_lt_top a ?_
  by_contra hn
  simp [Ideal.cmp, hn] at h

/-- The one index of the rank-0 shape. -/
instance : Subsingleton S_.Idx := ⟨fun a b => funext fun d => d.elim0⟩

/-- For any shape: if the fold by "and" over all axes, from 1, of the comparisons |x| < +infinity is 1, then every
    entry of x is a real number. -/
theorem allReal_of_reduce {S : Shape} {axes : List (Fin S.rank)} (x : FVec Ideal S .f32)
    (hb : S_.BroadcastsInDim S (![] : Fin 0 → Fin S.rank)) (hr : S.ReducesTo axes S_) (hu : 0 < S_.numel)
    (init : IVec S_ 1)
    (e : Host.reduce IntOp.andi
          (cmpf .olt (Host.absf x) (broadcastInDim S ![] hb (constant S_ .f32 0x7F800000#32))) init hr hu ix0 = 1#1) :
    AllReal x := by
  intro i
  have hi := Host.reduce_andi_all _ init hr hu ix0 e i
  exact real_of_cmp (x i) hi

/-- Every float input is finite: each of the seven float arguments has only real entries. -/
theorem allReal_of_pre [Cert.Pre_finite_inputs.Facts]
    (a0 : FVec Ideal S50000x100 .f32) (a1 : FVec Ideal S100x64 .f32) (a2 : FVec Ideal S64 .f32)
    (a3 : FVec Ideal S64x64 .f32) (a4 : FVec Ideal S64 .f32) (a5 : FVec Ideal S64x47 .f32) (a6 : FVec Ideal S47 .f32)
    (a7 a8 : IVec S800000 32)
    (h : fn (F := Ideal) a0 a1 a2 a3 a4 a5 a6 a7 a8 = fun _ => 1#1) :
    AllReal a0 ∧ AllReal a1 ∧ AllReal a2 ∧ AllReal a3 ∧ AllReal a4 ∧ AllReal a5 ∧ AllReal a6 := by
  have h0 := congrFun h ix0
  dsimp only [fn, fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_reduce a0 _ _ _ _ e0, allReal_of_reduce a1 _ _ _ _ e1, allReal_of_reduce a2 _ _ _ _ e2,
    allReal_of_reduce a3 _ _ _ _ e3, allReal_of_reduce a4 _ _ _ _ e4, allReal_of_reduce a5 _ _ _ _ e5,
    allReal_of_reduce a6 _ _ _ _ e6⟩

end Cert.Pre_finite_inputs.Finite
-- ==== Proof.lean ====
/-
  A three-layer graph convolution: the kernel multiplies by the weights before it aggregates, the reference after.

  Both programs first compute, from the edges' source and destination numbers, a scale factor per node (the
  reciprocal square root of the node's degree, or of one if the degree is smaller). A layer's aggregation scales each
  node's row by its source factor, sums over the edges delivered to a node the rows of the nodes those edges read, and
  scales the sum by the destination factor. The reference aggregates the node features and multiplies the result by the
  layer's weight matrix; the kernel multiplies first — in a pipelined region, ten row blocks of 5000 rows — and
  aggregates the product on the host; both then add the bias to every row, the kernel in a second pipelined region,
  and rectify after the first two layers.

  Over the extended reals the two orders agree when every entry is a real number, because the aggregation is a finite
  real-linear combination of rows: (agg (X · W)) (n, c) and ((agg X) · W) (n, c) are the same double sum over edges and
  over the contracted axis, exchanged. The precondition makes the features, weights and biases real; the scale factors
  are real because a degree is a finite sum of ones and the reciprocal square root of a real at least one is real; and
  each layer's output is real again, so the law applies layer after layer. A change of float format inside the product
  regions is the identity on extended reals, and the idealization rewrote nothing, so nothing is owed for it.

  The kernel's result is read off its run: the buffer contents at the ten segment boundaries are a fold from the launch
  memory, walked once (KernelValue), each region's output array being one whole-array function of its operands
  (RegionMatmul, RegionBias). The reference's result is its run's composed term read as the same network (RefValue).
-/
import proofs.«128478_j30691836297929_1_alg».proof.Defs
import proofs.«128478_j30691836297929_1_alg».proof.Proof.Gen.Kernel
import proofs.«128478_j30691836297929_1_alg».proof.Proof.Gen.Kernel.Frame
import proofs.«128478_j30691836297929_1_alg».proof.Proof.Gen.KernelIdeal
import proofs.«128478_j30691836297929_1_alg».proof.Proof.Gen.KernelIdeal.Frame
import proofs.«128478_j30691836297929_1_alg».proof.Proof.Gen.ReferenceIdeal
import proofs.«128478_j30691836297929_1_alg».proof.Proof.Gen.ReferenceIdeal.Run
import proofs.«128478_j30691836297929_1_alg».proof.Proof.Gen.Pre_finite_inputs
import proofs.«128478_j30691836297929_1_alg».proof.Proof.KernelRun
import proofs.«128478_j30691836297929_1_alg».proof.Proof.KernelValue
import proofs.«128478_j30691836297929_1_alg».proof.Proof.RefValue
import proofs.«128478_j30691836297929_1_alg».proof.Proof.Finite
import Idealize.ShloMosaic.Adequacy
import Idealize.ShloMosaic.Init

set_option maxRecDepth 16384

noncomputable section

namespace Cert.Proof

open Idealize.ShloMosaic Idealize.SL.Sem Cert.Gcn Cert.Fin

/-- The kernel as printed runs, and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The source scale factors are real. -/
theorem allReal_ns (m : (ℓ : Loc Cert.KernelIdeal.nD Cert.KernelIdeal.τ Cert.KernelIdeal.sig) → Buf (Elt Ideal) ℓ)
    (c : Dev Cert.KernelIdeal.nD) : AllReal (Cert.KernelIdeal.RunValue.ns m c) :=
  allReal_degNorm Cert.KernelIdeal.scatter_S50000_S800000x1_S800000_n_0_0_1 Cert.KernelIdeal.Gen.bcast_S_S50000
    Cert.KernelIdeal.Gen.bcast_S_S800000 Cert.KernelIdeal.Gen.bcast_S_S50000 _

/-- The destination scale factors are real. -/
theorem allReal_nd (m : (ℓ : Loc Cert.KernelIdeal.nD Cert.KernelIdeal.τ Cert.KernelIdeal.sig) → Buf (Elt Ideal) ℓ)
    (c : Dev Cert.KernelIdeal.nD) : AllReal (Cert.KernelIdeal.RunValue.nd m c) :=
  allReal_degNorm Cert.KernelIdeal.scatter_S50000_S800000x1_S800000_n_0_0_1 Cert.KernelIdeal.Gen.bcast_S_S50000
    Cert.KernelIdeal.Gen.bcast_S_S800000 Cert.KernelIdeal.Gen.bcast_S_S50000 _

open Cert.KernelIdeal.RunValue in
/-- Both idealized programs end with the three-layer network, aggregating first in each layer, of the arguments: the
    reference by its text, the kernel — which multiplies first — by the aggregation law, its inputs being real. -/
theorem algebraic : Cert.algebraic_KernelIdeal_ReferenceIdeal := by
  intro m ρ m' ρ' hpre hagree
  refine ⟨fun c => netR hN (ns m c) (nd m c) (sc m c) (dc m c) (a0 m c) (a1 m c) (a2 m c) (a3 m c) (a4 m c) (a5 m c) (a6 m c),
    ?_, ?_⟩
  · refine (θ_run Cert.KernelIdeal.defs _ _).mono (fun r h c => ⟨(h c).1.trans ?_, (h c).2⟩)
      (Cert.KernelIdeal.RunValue.run_result (F := Ideal) m ρ)
    obtain ⟨r0, r1, r2, r3, r4, r5, -⟩ := Cert.Pre_finite_inputs.Finite.allReal_of_pre _ _ _ _ _ _ _ _ _ (hpre c)
    exact (result_eq m ρ c).trans
      (netK_eq_netR hN (allReal_ns m c) (allReal_nd m c) (sc m c) (dc m c) r0 r1 r2 r3 r4 r5 (a6 m c))
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.RefValue.res_eq m' c]
    simp only [Cert.ReferenceIdeal.RefValue.a0, Cert.ReferenceIdeal.RefValue.a1, Cert.ReferenceIdeal.RefValue.a2,
      Cert.ReferenceIdeal.RefValue.a3, Cert.ReferenceIdeal.RefValue.a4, Cert.ReferenceIdeal.RefValue.a5,
      Cert.ReferenceIdeal.RefValue.a6, Cert.ReferenceIdeal.RefValue.a7, Cert.ReferenceIdeal.RefValue.a8]
    rw [e0, e1, e2, e3, e4, e5, e6, e7, e8]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
